-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S400000x6 : Shape := ⟨2, ![400000, 6]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S400000x6 : S_.BroadcastsInDim S400000x6 (![] : Fin 0 → Fin S400000x6.rank)
  reducesTo_S400000x6_S_d0_1 : S400000x6.ReducesTo [0, 1] S_

variable [Facts]

def fn_part1 {F : FTy → Type} [FloatOps F] (main_v13 : IVec S_ 1) (main_v16 : IVec S400000x6 1) : IVec S_ 1 :=
  let main_c_5 : IVec S_ 1 := constantI S_ 1 1#1
  let main_v17 : IVec S_ 1 := (fun x v => Host.reduce IntOp.andi x v reducesTo_S400000x6_S_d0_1 h_S_) main_v16 main_c_5
  let main_v18 : IVec S_ 1 := andi main_v13 main_v17
  main_v18

def fn {F : FTy → Type} [FloatOps F] (main_arg0 : FVec F S400000x128 .f32) (main_arg1 : FVec F S400000x128 .f32) (main_arg2 : FVec F S400000x128 .f32) (main_arg3 : FVec F S400000x6 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S400000x6 .f32 := Host.absf main_arg3
  let main_cst_4 : FVec F S_ .f32 := constant S_ .f32 0x7F800000#32
  let main_v15 : FVec F S400000x6 .f32 := broadcastInDim S400000x6 ![] bcast_S_S400000x6 main_cst_4
  let main_v16 : IVec S400000x6 1 := cmpf .olt main_v14 main_v15
  fn_part1 (F := F) main_v13 main_v16
-- ==== Kernel.lean ====
abbrev S400000x128 : Shape := ⟨2, ![400000, 128]⟩
abbrev S400000x6 : Shape := ⟨2, ![400000, 6]⟩
abbrev S1x1 : Shape := ⟨2, ![1, 1]⟩
abbrev S8000x128 : Shape := ⟨2, ![8000, 128]⟩
abbrev S8000x2x4x4x4 : Shape := ⟨5, ![8000, 2, 4, 4, 4]⟩
abbrev S8000x2x1x4x4 : Shape := ⟨5, ![8000, 2, 1, 4, 4]⟩
abbrev S8000x2x4x4 : Shape := ⟨4, ![8000, 2, 4, 4]⟩
abbrev S8000x2x4x4x1 : Shape := ⟨5, ![8000, 2, 4, 4, 1]⟩
abbrev S8000x2x3x1 : Shape := ⟨4, ![8000, 2, 3, 1]⟩
abbrev S8000x2x3 : Shape := ⟨3, ![8000, 2, 3]⟩
abbrev S1x8000x2x3 : Shape := ⟨4, ![1, 8000, 2, 3]⟩
abbrev S1 : Shape := ⟨1, ![1]⟩
abbrev S1x1x1x1 : Shape := ⟨4, ![1, 1, 1, 1]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S400000x6, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v119 : BitVec 1 := Scalar.cmpi .eq arg0 c49_i32
  let v120 : BitVec 32 := Scalar.extui v119
  let c0_i32_24 : BitVec 32 := 0#32
  let v121 : BitVec 1 := Scalar.cmpi .ne v120 c0_i32_24
  v121

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8000x128_S8000x128_0_0 : ∀ a, (![0, 0] : Fin 2 → Nat) a + S8000x128.size a ≤ S8000x128.size a
  h_S8000x128 : 0 < S8000x128.numel
  shapeCasts_S8000x128_S8000x2x4x4x4 : S8000x128.ShapeCasts S8000x2x4x4x4
  slices_S8000x2x4x4x4_o0_0_0_0_0_S8000x2x1x4x4 : S8000x2x4x4x4.Slices ![0, 0, 0, 0, 0] S8000x2x1x4x4
  shapeCasts_S8000x2x1x4x4_S8000x2x4x4 : S8000x2x1x4x4.ShapeCasts S8000x2x4x4
  slices_S8000x2x4x4x4_o0_0_1_0_0_S8000x2x1x4x4 : S8000x2x4x4x4.Slices ![0, 0, 1, 0, 0] S8000x2x1x4x4
  shapeCasts_S8000x2x4x4_S8000x2x4x4x1 : S8000x2x4x4.ShapeCasts S8000x2x4x4x1
  shapeCasts_S8000x2x4x4_S8000x2x1x4x4 : S8000x2x4x4.ShapeCasts S8000x2x1x4x4
  broadcasts_S8000x2x4x4x1_S8000x2x4x4x4 : S8000x2x4x4x1.Broadcasts S8000x2x4x4x4
  broadcasts_S8000x2x1x4x4_S8000x2x4x4x4 : S8000x2x1x4x4.Broadcasts S8000x2x4x4x4
  reduces_S8000x2x4x4x4_S8000x2x4x4 : S8000x2x4x4x4.Reduces [3] S8000x2x4x4
  slices_S8000x2x4x4x4_o0_0_2_0_0_S8000x2x1x4x4 : S8000x2x4x4x4.Slices ![0, 0, 2, 0, 0] S8000x2x1x4x4
  slices_S8000x2x4x4x4_o0_0_3_0_0_S8000x2x1x4x4 : S8000x2x4x4x4.Slices ![0, 0, 3, 0, 0] S8000x2x1x4x4
  slices_S8000x2x4x4_o0_0_0_3_S8000x2x3x1 : S8000x2x4x4.Slices ![0, 0, 0, 3] S8000x2x3x1
  shapeCasts_S8000x2x3x1_S8000x2x3 : S8000x2x3x1.ShapeCasts S8000x2x3
  shapeCasts_S8000x2x3_S1x8000x2x3 : S8000x2x3.ShapeCasts S1x8000x2x3
  reduces_S1x8000x2x3_S1 : S1x8000x2x3.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S400000x128.size a
  hwx0_1 : ∀ i : grid0.Coords, EltTy.bits .f32 = 32 ∨ (Rect.block (s := S400000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S400000x128.size a
  hwx0_2 : ∀ i : grid0.Coords, EltTy.bits .f32 = 32 ∨ (Rect.block (s := S400000x128) S8000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S400000x128 : Shape := ⟨2, ![400000, 128]⟩
abbrev S400000x6 : Shape := ⟨2, ![400000, 6]⟩
abbrev S400000x2x4x4x4 : Shape := ⟨5, ![400000, 2, 4, 4, 4]⟩
abbrev S400000x2x1x4x4 : Shape := ⟨5, ![400000, 2, 1, 4, 4]⟩
abbrev S400000x2x4x4 : Shape := ⟨4, ![400000, 2, 4, 4]⟩
abbrev S400000x2x3x1 : Shape := ⟨4, ![400000, 2, 3, 1]⟩
abbrev S400000x2x3 : Shape := ⟨3, ![400000, 2, 3]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S400000x6, .f32⟩
  | .hbm, ⟨4, _⟩ => ⟨S400000x2x4x4x4, .f32⟩
  | .hbm, ⟨5, _⟩ => ⟨S400000x2x4x4x4, .f32⟩
  | .hbm, ⟨6, _⟩ => ⟨S400000x2x4x4x4, .f32⟩
  | .hbm, ⟨7, _⟩ => ⟨S400000x2x1x4x4, .f32⟩
  | .hbm, ⟨8, _⟩ => ⟨S400000x2x4x4, .f32⟩
  | .hbm, ⟨9, _⟩ => ⟨S400000x2x1x4x4, .f32⟩
  | .hbm, ⟨10, _⟩ => ⟨S400000x2x4x4, .f32⟩
  | .hbm, ⟨11, _⟩ => ⟨S400000x2x4x4, .f32⟩
  | .hbm, ⟨12, _⟩ => ⟨S400000x2x1x4x4, .f32⟩
  | .hbm, ⟨13, _⟩ => ⟨S400000x2x4x4, .f32⟩
  | .hbm, ⟨14, _⟩ => ⟨S400000x2x4x4, .f32⟩
  | .hbm, ⟨15, _⟩ => ⟨S400000x2x1x4x4, .f32⟩
  | .hbm, ⟨16, _⟩ => ⟨S400000x2x4x4, .f32⟩
  | .hbm, ⟨17, _⟩ => ⟨S400000x2x4x4, .f32⟩
  | .hbm, ⟨18, _⟩ => ⟨S400000x2x3x1, .f32⟩
  | .hbm, ⟨19, _⟩ => ⟨S400000x2x3, .f32⟩
  | .hbm, ⟨20, _⟩ => ⟨S400000x2x1x4x4, .f32⟩
  | .hbm, ⟨21, _⟩ => ⟨S400000x2x4x4, .f32⟩
  | .hbm, ⟨22, _⟩ => ⟨S400000x2x1x4x4, .f32⟩
  | .hbm, ⟨23, _⟩ => ⟨S400000x2x4x4, .f32⟩
  | .hbm, ⟨24, _⟩ => ⟨S400000x2x4x4, .f32⟩
  | .hbm, ⟨25, _⟩ => ⟨S400000x2x1x4x4, .f32⟩
  | .hbm, ⟨26, _⟩ => ⟨S400000x2x4x4, .f32⟩
  | .hbm, ⟨27, _⟩ => ⟨S400000x2x4x4, .f32⟩
  | .hbm, ⟨28, _⟩ => ⟨S400000x2x1x4x4, .f32⟩
  | .hbm, ⟨29, _⟩ => ⟨S400000x2x4x4, .f32⟩
  | .hbm, ⟨30, _⟩ => ⟨S400000x2x4x4, .f32⟩
  | .hbm, ⟨31, _⟩ => ⟨S400000x2x3x1, .f32⟩
  | .hbm, ⟨32, _⟩ => ⟨S400000x2x3, .f32⟩
  | .hbm, ⟨33, _⟩ => ⟨S400000x2x1x4x4, .f32⟩
  | .hbm, ⟨34, _⟩ => ⟨S400000x2x4x4, .f32⟩
  | .hbm, ⟨35, _⟩ => ⟨S400000x2x1x4x4, .f32⟩
  | .hbm, ⟨36, _⟩ => ⟨S400000x2x4x4, .f32⟩
  | .hbm, ⟨37, _⟩ => ⟨S400000x2x4x4, .f32⟩
  | .hbm, ⟨38, _⟩ => ⟨S400000x2x1x4x4, .f32⟩
  | .hbm, ⟨39, _⟩ => ⟨S400000x2x4x4, .f32⟩
  | .hbm, ⟨40, _⟩ => ⟨S400000x2x4x4, .f32⟩
  | .hbm, ⟨41, _⟩ => ⟨S400000x2x1x4x4, .f32⟩
  | .hbm, ⟨42, _⟩ => ⟨S400000x2x4x4, .f32⟩
  | .hbm, ⟨43, _⟩ => ⟨S400000x2x4x4, .f32⟩
  | .hbm, ⟨44, _⟩ => ⟨S400000x2x3x1, .f32⟩
  | .hbm, ⟨45, _⟩ => ⟨S400000x2x3, .f32⟩
  | .hbm, ⟨46, _⟩ => ⟨S400000x2x3, .f32⟩
  | .hbm, ⟨47, _⟩ => ⟨S400000x2x3, .f32⟩
  | .hbm, ⟨48, _⟩ => ⟨S400000x2x3, .f32⟩
  | .hbm, ⟨49, _⟩ => ⟨S400000x2x3, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S400000x2x3, .f32⟩
  | .hbm, ⟨55, _⟩ => ⟨S400000x2x3, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst : Ref sig .tc := ⟨.hbm, 50, rfl⟩
abbrev main_v46 : Ref sig .tc := ⟨.hbm, 51, rfl⟩
abbrev main_cst_0 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_1 : Ref sig .tc := ⟨.hbm, 56, rfl⟩
abbrev main_v50 : Ref sig .tc := ⟨.hbm, 57, rfl⟩
abbrev main_cst_2 : Ref sig .tc := ⟨.hbm, 58, rfl⟩
abbrev main_v51 : Ref sig .tc := ⟨.hbm, 59, rfl⟩

abbrev nD : Nat := 1
abbrev τ : Topo := Topo.v7x

variable {F : FTy → Type} [FloatOps F]

class Facts₀ : Prop where
  shapeCasts_S400000x128_S400000x2x4x4x4 : S400000x128.ShapeCasts S400000x2x4x4x4
  slices_S400000x2x4x4x4_S400000x2x1x4x4_0_0_0_0_0 : S400000x2x4x4x4.Slices ![0, 0, 0, 0, 0] S400000x2x1x4x4
  shapeCasts_S400000x2x1x4x4_S400000x2x4x4 : S400000x2x1x4x4.ShapeCasts S400000x2x4x4
  slices_S400000x2x4x4x4_S400000x2x1x4x4_0_0_1_0_0 : S400000x2x4x4x4.Slices ![0, 0, 1, 0, 0] S400000x2x1x4x4
  slices_S400000x2x4x4x4_S400000x2x1x4x4_0_0_2_0_0 : S400000x2x4x4x4.Slices ![0, 0, 2, 0, 0] S400000x2x1x4x4
  slices_S400000x2x4x4x4_S400000x2x1x4x4_0_0_3_0_0 : S400000x2x4x4x4.Slices ![0, 0, 3, 0, 0] S400000x2x1x4x4
  slices_S400000x2x4x4_S400000x2x3x1_0_0_0_3 : S400000x2x4x4.Slices ![0, 0, 0, 3] S400000x2x3x1
  shapeCasts_S400000x2x3x1_S400000x2x3 : S400000x2x3x1.ShapeCasts S400000x2x3
  reducesTo_S400000x2x3_S_d0_1_2 : S400000x2x3.ReducesTo [0, 1, 2] S_
  h_S_ : 0 < S_.numel
  dot_S400000x2x4x4_S400000x2x4x4_S400000x2x4x4_3_2_2_3_01_01_wf : DotDims.WF S400000x2x4x4 S400000x2x4x4 S400000x2x4x4 [3] [2] [2] [3] [0, 1] [0, 1]

variable [Facts₀]

def dot_S400000x2x4x4_S400000x2x4x4_S400000x2x4x4_3_2_2_3_01_01 : DotDims S400000x2x4x4 S400000x2x4x4 S400000x2x4x4 where
  lhsContracting := [3]
  rhsContracting := [2]
  lhsNonContracting := [2]
  rhsNonContracting := [3]
  lhsBatch := [0, 1]
  rhsBatch := [0, 1]
  wf := dot_S400000x2x4x4_S400000x2x4x4_S400000x2x4x4_3_2_2_3_01_01_wf

class Facts : Prop extends Facts₀ where

variable [Facts]
-- ==== Proof.Spec.lean ====
/-
  The two losses as functions of the three pose arrays, over the extended reals.

  A row of 128 numbers holds two chains of four 4×4 matrices, row-major: entry (a, b) of joint j of chain c sits at
  c·64 + j·16 + a·4 + b. The chain's transform is the product P0·P1·P2·P3 taken left to right, and the end-effector
  position is rows 0..2 of its last column. With o, g, p the positions from the predicted, the target and the previous
  target pose, the position error of a coordinate is (o − g)² and the velocity error ((o − p) − (g − p))²; each loss is
  the sum of its error over all rows, chains and coordinates, divided by the number 2400000 of coordinates.

  Nothing here opens subtraction, multiplication or division on the extended reals: both programs apply them to the
  same operands. The one law used is that a finite sum may be regrouped — the 400000 rows as 50 blocks of 8000 —
  which holds in any commutative monoid, so no finiteness of the inputs is needed.
-/
import Idealize.ShloMosaic.PureOps.Ideal
import Idealize.ShloMosaic.PureOps.Ideal.Laws
import Idealize.ShloMosaic.Lib.ValueIdx

noncomputable section

open scoped BigOperators

namespace Cert.FkLoss

open Idealize.ShloMosaic Idealize.ShloMosaic.ValueIdx

/-! ## One row -/

/-- Entry (a, b) of joint j of chain c of a row. -/
def ent (row : Fin 128 → EReal) (c : Fin 2) (j a b : Fin 4) : EReal :=
  row ⟨c.val * 64 + j.val * 16 + a.val * 4 + b.val, by
    have := c.isLt; have := j.isLt; have := a.isLt; have := b.isLt; omega⟩

/-- Entry (i, l) of the chain product P0·P1·P2·P3 of chain c, multiplied left to right. -/
def chain (row : Fin 128 → EReal) (c : Fin 2) (i l : Fin 4) : EReal :=
  ∑ k3 : Fin 4, (∑ k2 : Fin 4, (∑ k1 : Fin 4, ent row c 0 i k1 * ent row c 1 k1 k2) * ent row c 2 k2 k3) * ent row c 3 k3 l

/-- The end-effector position of chain c: coordinate i is entry (i, 3) of the chain product. -/
def pos (row : Fin 128 → EReal) (c : Fin 2) (i : Fin 3) : EReal :=
  chain row c ⟨i.val, by have := i.isLt; omega⟩ 3

/-- The squared position error of one coordinate. -/
def posErr (o g : Fin 128 → EReal) (c : Fin 2) (i : Fin 3) : EReal :=
  (pos o c i - pos g c i) * (pos o c i - pos g c i)

/-- The squared velocity error of one coordinate: both velocities are taken against the previous target pose. -/
def velErr (o g p : Fin 128 → EReal) (c : Fin 2) (i : Fin 3) : EReal :=
  ((pos o c i - pos p c i) - (pos g c i - pos p c i)) * ((pos o c i - pos p c i) - (pos g c i - pos p c i))

/-- A row's position error, summed over chains and coordinates. -/
def rowPos (o g : Fin 128 → EReal) : EReal := ∑ c : Fin 2, ∑ i : Fin 3, posErr o g c i

/-- A row's velocity error, summed over chains and coordinates. -/
def rowVel (o g p : Fin 128 → EReal) : EReal := ∑ c : Fin 2, ∑ i : Fin 3, velErr o g p c i

/-! ## The arrays and their blocks -/

/-- Row n of a whole pose array. -/
def rowA (A : (⟨2, ![400000, 128]⟩ : Shape).Idx → EReal) (n : Fin 400000) : Fin 128 → EReal := fun k => A (ix2 n k)

/-- Row r of a block of 8000 rows. -/
def rowB (x : (⟨2, ![8000, 128]⟩ : Shape).Idx → EReal) (r : Fin 8000) : Fin 128 → EReal := fun k => x (ix2 r k)

/-- The divisor: the float 2400000.0, the number of position coordinates. -/
def count : EReal := Ideal.ofBits .f32 0x4A127C00#32

/-- The position loss. -/
def posLoss (O G : (⟨2, ![400000, 128]⟩ : Shape).Idx → EReal) : EReal :=
  Ideal.div (∑ n : Fin 400000, rowPos (rowA O n) (rowA G n)) count

/-- The velocity loss. -/
def velLoss (O G P : (⟨2, ![400000, 128]⟩ : Shape).Idx → EReal) : EReal :=
  Ideal.div (∑ n : Fin 400000, rowVel (rowA O n) (rowA G n) (rowA P n)) count

/-- A block's share of the position error. -/
def blockPos (x0 x1 : (⟨2, ![8000, 128]⟩ : Shape).Idx → EReal) : EReal :=
  ∑ r : Fin 8000, rowPos (rowB x0 r) (rowB x1 r)

/-- A block's share of the velocity error. -/
def blockVel (x0 x1 x2 : (⟨2, ![8000, 128]⟩ : Shape).Idx → EReal) : EReal :=
  ∑ r : Fin 8000, rowVel (rowB x0 r) (rowB x1 r) (rowB x2 r)

/-! ## Regrouping finite sums -/

/-- A rank-3 index set is the product of its coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set likewise. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row t·8000 + r of the array: row r of block t. -/
def rowIx (t : Fin 50) (r : Fin 8000) : Fin 400000 :=
  ⟨t.val * 8000 + r.val, by have := t.isLt; have := r.isLt; omega⟩

/-- The 400000 rows are 50 blocks of 8000: a sum over the rows is the sum over the blocks of the sums over each
    block's rows. -/
theorem sum_rows_eq_sum_blocks {M : Type*} [AddCommMonoid M] (h : Fin 400000 → M) :
    ∑ n : Fin 400000, h n = ∑ t : Fin 50, ∑ r : Fin 8000, h (rowIx t r) := by
  rw [← Fintype.sum_prod_type']
  refine (Fintype.sum_equiv ((finProdFinEquiv (m := 50) (n := 8000)).trans (finCongr (by norm_num))) _ _ fun p => ?_).symm
  refine congrArg h (Fin.ext ?_)
  obtain ⟨t, r⟩ := p
  simp only [rowIx, Equiv.trans_apply, finProdFinEquiv_apply_val, finCongr_apply, Fin.coe_cast]
  omega

end Cert.FkLoss

end
-- ==== Proof.RefLoss.lean ====
/-
  The reference's two results, read at the extended reals, are the two losses of the specification: its chained
  matrix products are the chain product entry by entry, and its means are the sums over all rows, chains and
  coordinates divided by their number.
-/
import proofs.«113168_j64149631533149_1_alg».proof.Proof.Gen.ReferenceIdeal.Read
import proofs.«113168_j64149631533149_1_alg».proof.Proof.Spec

noncomputable section

open scoped BigOperators

namespace Cert.FkLoss.Ref

open Idealize.ShloMosaic Idealize.ShloMosaic.ValueIdx Cert.ReferenceIdeal Cert.ReferenceIdeal.Read Cert.FkLoss

/-! ## Where each layout step reads

Each lemma says where one reshape or slice reads, with the index given by its coordinates. -/

/-- Splitting a row of 128 into chain, joint, matrix row and matrix column: entry (c, j, a, b) of row n is read at
    column c·64 + j·16 + a·4 + b of the same row. -/
theorem idx_split (n : Fin 400000) (c : Fin 2) (j a b : Fin 4) :
    idx_main_v0 (ix5 n c j a b) = ix2 n ⟨c.val * 64 + j.val * 16 + a.val * 4 + b.val, by
      have := c.isLt; have := j.isLt; have := a.isLt; have := b.isLt; omega⟩ := by
  have hc := c.isLt; have hj := j.isLt; have ha := a.isLt; have hb := b.isLt
  funext d
  refine Fin.ext ?_
  match d with
  | ⟨0, _⟩ =>
    show ((((n.val * 2 + c.val) * 4 + j.val) * 4 + a.val) * 4 + b.val) / 128 = n.val
    omega
  | ⟨1, _⟩ =>
    show ((((n.val * 2 + c.val) * 4 + j.val) * 4 + a.val) * 4 + b.val) % 128 = c.val * 64 + j.val * 16 + a.val * 4 + b.val
    omega

/-- Dropping the joint axis of size one: entry (n, c, a, b) is read at (n, c, 0, a, b). -/
theorem idx_drop (n : Fin 400000) (c : Fin 2) (a b : Fin 4) :
    idx_main_v4 (ix4 n c a b) = ix5 n c (0 : Fin 1) a b := by
  have hn := n.isLt; have hc := c.isLt; have ha := a.isLt; have hb := b.isLt
  funext d
  refine Fin.ext ?_
  match d with
  | ⟨0, _⟩ =>
    show (((n.val * 2 + c.val) * 4 + a.val) * 4 + b.val) / 32 = n.val
    omega
  | ⟨1, _⟩ =>
    show (((n.val * 2 + c.val) * 4 + a.val) * 4 + b.val) / 16 % 2 = c.val
    omega
  | ⟨2, _⟩ => rfl
  | ⟨3, _⟩ =>
    show (((n.val * 2 + c.val) * 4 + a.val) * 4 + b.val) / 4 % 4 = a.val
    omega
  | ⟨4, _⟩ =>
    show (((n.val * 2 + c.val) * 4 + a.val) * 4 + b.val) % 4 = b.val
    omega

/-- The slice of joint 0 reads joint 0. -/
theorem idx_joint0 (n : Fin 400000) (c : Fin 2) (a b : Fin 4) :
    idx_main_v3 (ix5 n c (0 : Fin 1) a b) = ix5 n c (0 : Fin 4) a b := by
  funext d
  refine Fin.ext ?_
  match d with
  | ⟨0, _⟩ => rfl
  | ⟨1, _⟩ => rfl
  | ⟨2, _⟩ => rfl
  | ⟨3, _⟩ => rfl
  | ⟨4, _⟩ => rfl

/-- The slice of joint 1 reads joint 1. -/
theorem idx_joint1 (n : Fin 400000) (c : Fin 2) (a b : Fin 4) :
    idx_main_v5 (ix5 n c (0 : Fin 1) a b) = ix5 n c (1 : Fin 4) a b := by
  funext d
  refine Fin.ext ?_
  match d with
  | ⟨0, _⟩ => rfl
  | ⟨1, _⟩ => rfl
  | ⟨2, _⟩ => rfl
  | ⟨3, _⟩ => rfl
  | ⟨4, _⟩ => rfl

/-- The slice of joint 2 reads joint 2. -/
theorem idx_joint2 (n : Fin 400000) (c : Fin 2) (a b : Fin 4) :
    idx_main_v8 (ix5 n c (0 : Fin 1) a b) = ix5 n c (2 : Fin 4) a b := by
  funext d
  refine Fin.ext ?_
  match d with
  | ⟨0, _⟩ => rfl
  | ⟨1, _⟩ => rfl
  | ⟨2, _⟩ => rfl
  | ⟨3, _⟩ => rfl
  | ⟨4, _⟩ => rfl

/-- The slice of joint 3 reads joint 3. -/
theorem idx_joint3 (n : Fin 400000) (c : Fin 2) (a b : Fin 4) :
    idx_main_v11 (ix5 n c (0 : Fin 1) a b) = ix5 n c (3 : Fin 4) a b := by
  funext d
  refine Fin.ext ?_
  match d with
  | ⟨0, _⟩ => rfl
  | ⟨1, _⟩ => rfl
  | ⟨2, _⟩ => rfl
  | ⟨3, _⟩ => rfl
  | ⟨4, _⟩ => rfl

/-- In a batched matrix product the left factor is read at (n, c, a, k) … -/
theorem idx_left (n : Fin 400000) (c : Fin 2) (a b k : Fin 4) :
    lidx_main_v7 (ix4 n c a b) k = ix4 n c a k := by
  funext d
  match d with
  | ⟨0, _⟩ => rfl
  | ⟨1, _⟩ => rfl
  | ⟨2, _⟩ => rfl
  | ⟨3, _⟩ => rfl

/-- … and the right factor at (n, c, k, b). -/
theorem idx_right (n : Fin 400000) (c : Fin 2) (a b k : Fin 4) :
    ridx_main_v7 (ix4 n c a b) k = ix4 n c k b := by
  funext d
  match d with
  | ⟨0, _⟩ => rfl
  | ⟨1, _⟩ => rfl
  | ⟨2, _⟩ => rfl
  | ⟨3, _⟩ => rfl

/-- Rows 0..2 of column 3: entry (n, c, i, 0) of the slice is read at (n, c, i, 3). -/
theorem idx_col3 (n : Fin 400000) (c : Fin 2) (i : Fin 3) :
    idx_main_v14 (ix4 n c i (0 : Fin 1)) = ix4 n c (⟨i.val, by have := i.isLt; omega⟩ : Fin 4) (3 : Fin 4) := by
  funext d
  refine Fin.ext ?_
  match d with
  | ⟨0, _⟩ => rfl
  | ⟨1, _⟩ => rfl
  | ⟨2, _⟩ => rfl
  | ⟨3, _⟩ => rfl

/-- Dropping the last axis of size one: entry (n, c, i) is read at (n, c, i, 0). -/
theorem idx_drop3 (n : Fin 400000) (c : Fin 2) (i : Fin 3) :
    idx_main_v15 (ix3 n c i) = ix4 n c i (0 : Fin 1) := by
  have hn := n.isLt; have hc := c.isLt; have hi := i.isLt
  funext d
  refine Fin.ext ?_
  match d with
  | ⟨0, _⟩ =>
    show ((n.val * 2 + c.val) * 3 + i.val) / 6 = n.val
    omega
  | ⟨1, _⟩ =>
    show ((n.val * 2 + c.val) * 3 + i.val) / 3 % 2 = c.val
    omega
  | ⟨2, _⟩ =>
    show ((n.val * 2 + c.val) * 3 + i.val) / 1 % 3 = i.val
    omega
  | ⟨3, _⟩ => rfl

/-! ## The first pose array -/

/-- Joint 0 of the first array, as the reference slices it out, is joint 0 of the row. -/
theorem a_joint0 (x : (⟨S400000x128, .f32⟩ : BufTy).Contents (Elt Ideal)) (n : Fin 400000) (c : Fin 2) (a b : Fin 4) :
    val_main_v4 (F := Ideal) x (ix4 n c a b) = ent (rowA x n) c 0 a b := by
  rw [val_main_v4_apply, (show idx_main_v4 (ix4 n c a b) = _ from idx_drop n c a b),
    val_main_v3_apply, (show idx_main_v3 (ix5 n c (0 : Fin 1) a b) = _ from idx_joint0 n c a b),
    val_main_v0_apply, (show idx_main_v0 (ix5 n c (0 : Fin 4) a b) = _ from idx_split n c 0 a b)]
  rfl

/-- Joint 1 of the first array, as the reference slices it out, is joint 1 of the row. -/
theorem a_joint1 (x : (⟨S400000x128, .f32⟩ : BufTy).Contents (Elt Ideal)) (n : Fin 400000) (c : Fin 2) (a b : Fin 4) :
    val_main_v6 (F := Ideal) x (ix4 n c a b) = ent (rowA x n) c 1 a b := by
  rw [val_main_v6_apply, (show idx_main_v6 (ix4 n c a b) = _ from idx_drop n c a b),
    val_main_v5_apply, (show idx_main_v5 (ix5 n c (0 : Fin 1) a b) = _ from idx_joint1 n c a b),
    val_main_v0_apply, (show idx_main_v0 (ix5 n c (1 : Fin 4) a b) = _ from idx_split n c 1 a b)]
  rfl

/-- Joint 2 of the first array, as the reference slices it out, is joint 2 of the row. -/
theorem a_joint2 (x : (⟨S400000x128, .f32⟩ : BufTy).Contents (Elt Ideal)) (n : Fin 400000) (c : Fin 2) (a b : Fin 4) :
    val_main_v9 (F := Ideal) x (ix4 n c a b) = ent (rowA x n) c 2 a b := by
  rw [val_main_v9_apply, (show idx_main_v9 (ix4 n c a b) = _ from idx_drop n c a b),
    val_main_v8_apply, (show idx_main_v8 (ix5 n c (0 : Fin 1) a b) = _ from idx_joint2 n c a b),
    val_main_v0_apply, (show idx_main_v0 (ix5 n c (2 : Fin 4) a b) = _ from idx_split n c 2 a b)]
  rfl

/-- Joint 3 of the first array, as the reference slices it out, is joint 3 of the row. -/
theorem a_joint3 (x : (⟨S400000x128, .f32⟩ : BufTy).Contents (Elt Ideal)) (n : Fin 400000) (c : Fin 2) (a b : Fin 4) :
    val_main_v12 (F := Ideal) x (ix4 n c a b) = ent (rowA x n) c 3 a b := by
  rw [val_main_v12_apply, (show idx_main_v12 (ix4 n c a b) = _ from idx_drop n c a b),
    val_main_v11_apply, (show idx_main_v11 (ix5 n c (0 : Fin 1) a b) = _ from idx_joint3 n c a b),
    val_main_v0_apply, (show idx_main_v0 (ix5 n c (3 : Fin 4) a b) = _ from idx_split n c 3 a b)]
  rfl

/-- The first product: P0·P1. -/
theorem a_prod1 (x : (⟨S400000x128, .f32⟩ : BufTy).Contents (Elt Ideal)) (n : Fin 400000) (c : Fin 2) (a b : Fin 4) :
    val_main_v7 (F := Ideal) x (ix4 n c a b) = ∑ k1 : Fin 4, ent (rowA x n) c 0 a k1 * ent (rowA x n) c 1 k1 b := by
  rw [val_main_v7_apply]
  refine Finset.sum_congr rfl fun k _ => ?_
  rw [(show lidx_main_v7 (ix4 n c a b) k = _ from idx_left n c a b k),
    (show ridx_main_v7 (ix4 n c a b) k = _ from idx_right n c a b k),
    a_joint0, a_joint1]

/-- The second product: (P0·P1)·P2. -/
theorem a_prod2 (x : (⟨S400000x128, .f32⟩ : BufTy).Contents (Elt Ideal)) (n : Fin 400000) (c : Fin 2) (a b : Fin 4) :
    val_main_v10 (F := Ideal) x (ix4 n c a b)
      = ∑ k2 : Fin 4, (∑ k1 : Fin 4, ent (rowA x n) c 0 a k1 * ent (rowA x n) c 1 k1 k2) * ent (rowA x n) c 2 k2 b := by
  rw [val_main_v10_apply]
  refine Finset.sum_congr rfl fun k _ => ?_
  rw [(show lidx_main_v10 (ix4 n c a b) k = _ from idx_left n c a b k),
    (show ridx_main_v10 (ix4 n c a b) k = _ from idx_right n c a b k),
    a_prod1, a_joint2]

/-- The third product, ((P0·P1)·P2)·P3, is the chain product. -/
theorem a_prod3 (x : (⟨S400000x128, .f32⟩ : BufTy).Contents (Elt Ideal)) (n : Fin 400000) (c : Fin 2) (a b : Fin 4) :
    val_main_v13 (F := Ideal) x (ix4 n c a b) = chain (rowA x n) c a b := by
  rw [val_main_v13_apply]
  unfold chain
  refine Finset.sum_congr rfl fun k _ => ?_
  rw [(show lidx_main_v13 (ix4 n c a b) k = _ from idx_left n c a b k),
    (show ridx_main_v13 (ix4 n c a b) k = _ from idx_right n c a b k),
    a_prod2, a_joint3]

/-! ## The second pose array -/

/-- Joint 0 of the second array, as the reference slices it out, is joint 0 of the row. -/
theorem b_joint0 (x : (⟨S400000x128, .f32⟩ : BufTy).Contents (Elt Ideal)) (n : Fin 400000) (c : Fin 2) (a b : Fin 4) :
    val_main_v17 (F := Ideal) x (ix4 n c a b) = ent (rowA x n) c 0 a b := by
  rw [val_main_v17_apply, (show idx_main_v17 (ix4 n c a b) = _ from idx_drop n c a b),
    val_main_v16_apply, (show idx_main_v16 (ix5 n c (0 : Fin 1) a b) = _ from idx_joint0 n c a b),
    val_main_v1_apply, (show idx_main_v1 (ix5 n c (0 : Fin 4) a b) = _ from idx_split n c 0 a b)]
  rfl

/-- Joint 1 of the second array, as the reference slices it out, is joint 1 of the row. -/
theorem b_joint1 (x : (⟨S400000x128, .f32⟩ : BufTy).Contents (Elt Ideal)) (n : Fin 400000) (c : Fin 2) (a b : Fin 4) :
    val_main_v19 (F := Ideal) x (ix4 n c a b) = ent (rowA x n) c 1 a b := by
  rw [val_main_v19_apply, (show idx_main_v19 (ix4 n c a b) = _ from idx_drop n c a b),
    val_main_v18_apply, (show idx_main_v18 (ix5 n c (0 : Fin 1) a b) = _ from idx_joint1 n c a b),
    val_main_v1_apply, (show idx_main_v1 (ix5 n c (1 : Fin 4) a b) = _ from idx_split n c 1 a b)]
  rfl

/-- Joint 2 of the second array, as the reference slices it out, is joint 2 of the row. -/
theorem b_joint2 (x : (⟨S400000x128, .f32⟩ : BufTy).Contents (Elt Ideal)) (n : Fin 400000) (c : Fin 2) (a b : Fin 4) :
    val_main_v22 (F := Ideal) x (ix4 n c a b) = ent (rowA x n) c 2 a b := by
  rw [val_main_v22_apply, (show idx_main_v22 (ix4 n c a b) = _ from idx_drop n c a b),
    val_main_v21_apply, (show idx_main_v21 (ix5 n c (0 : Fin 1) a b) = _ from idx_joint2 n c a b),
    val_main_v1_apply, (show idx_main_v1 (ix5 n c (2 : Fin 4) a b) = _ from idx_split n c 2 a b)]
  rfl

/-- Joint 3 of the second array, as the reference slices it out, is joint 3 of the row. -/
theorem b_joint3 (x : (⟨S400000x128, .f32⟩ : BufTy).Contents (Elt Ideal)) (n : Fin 400000) (c : Fin 2) (a b : Fin 4) :
    val_main_v25 (F := Ideal) x (ix4 n c a b) = ent (rowA x n) c 3 a b := by
  rw [val_main_v25_apply, (show idx_main_v25 (ix4 n c a b) = _ from idx_drop n c a b),
    val_main_v24_apply, (show idx_main_v24 (ix5 n c (0 : Fin 1) a b) = _ from idx_joint3 n c a b),
    val_main_v1_apply, (show idx_main_v1 (ix5 n c (3 : Fin 4) a b) = _ from idx_split n c 3 a b)]
  rfl

/-- The first product: P0·P1. -/
theorem b_prod1 (x : (⟨S400000x128, .f32⟩ : BufTy).Contents (Elt Ideal)) (n : Fin 400000) (c : Fin 2) (a b : Fin 4) :
    val_main_v20 (F := Ideal) x (ix4 n c a b) = ∑ k1 : Fin 4, ent (rowA x n) c 0 a k1 * ent (rowA x n) c 1 k1 b := by
  rw [val_main_v20_apply]
  refine Finset.sum_congr rfl fun k _ => ?_
  rw [(show lidx_main_v20 (ix4 n c a b) k = _ from idx_left n c a b k),
    (show ridx_main_v20 (ix4 n c a b) k = _ from idx_right n c a b k),
    b_joint0, b_joint1]

/-- The second product: (P0·P1)·P2. -/
theorem b_prod2 (x : (⟨S400000x128, .f32⟩ : BufTy).Contents (Elt Ideal)) (n : Fin 400000) (c : Fin 2) (a b : Fin 4) :
    val_main_v23 (F := Ideal) x (ix4 n c a b)
      = ∑ k2 : Fin 4, (∑ k1 : Fin 4, ent (rowA x n) c 0 a k1 * ent (rowA x n) c 1 k1 k2) * ent (rowA x n) c 2 k2 b := by
  rw [val_main_v23_apply]
  refine Finset.sum_congr rfl fun k _ => ?_
  rw [(show lidx_main_v23 (ix4 n c a b) k = _ from idx_left n c a b k),
    (show ridx_main_v23 (ix4 n c a b) k = _ from idx_right n c a b k),
    b_prod1, b_joint2]

/-- The third product, ((P0·P1)·P2)·P3, is the chain product. -/
theorem b_prod3 (x : (⟨S400000x128, .f32⟩ : BufTy).Contents (Elt Ideal)) (n : Fin 400000) (c : Fin 2) (a b : Fin 4) :
    val_main_v26 (F := Ideal) x (ix4 n c a b) = chain (rowA x n) c a b := by
  rw [val_main_v26_apply]
  unfold chain
  refine Finset.sum_congr rfl fun k _ => ?_
  rw [(show lidx_main_v26 (ix4 n c a b) k = _ from idx_left n c a b k),
    (show ridx_main_v26 (ix4 n c a b) k = _ from idx_right n c a b k),
    b_prod2, b_joint3]

/-! ## The third pose array -/

/-- Joint 0 of the third array, as the reference slices it out, is joint 0 of the row. -/
theorem c_joint0 (x : (⟨S400000x128, .f32⟩ : BufTy).Contents (Elt Ideal)) (n : Fin 400000) (c : Fin 2) (a b : Fin 4) :
    val_main_v30 (F := Ideal) x (ix4 n c a b) = ent (rowA x n) c 0 a b := by
  rw [val_main_v30_apply, (show idx_main_v30 (ix4 n c a b) = _ from idx_drop n c a b),
    val_main_v29_apply, (show idx_main_v29 (ix5 n c (0 : Fin 1) a b) = _ from idx_joint0 n c a b),
    val_main_v2_apply, (show idx_main_v2 (ix5 n c (0 : Fin 4) a b) = _ from idx_split n c 0 a b)]
  rfl

/-- Joint 1 of the third array, as the reference slices it out, is joint 1 of the row. -/
theorem c_joint1 (x : (⟨S400000x128, .f32⟩ : BufTy).Contents (Elt Ideal)) (n : Fin 400000) (c : Fin 2) (a b : Fin 4) :
    val_main_v32 (F := Ideal) x (ix4 n c a b) = ent (rowA x n) c 1 a b := by
  rw [val_main_v32_apply, (show idx_main_v32 (ix4 n c a b) = _ from idx_drop n c a b),
    val_main_v31_apply, (show idx_main_v31 (ix5 n c (0 : Fin 1) a b) = _ from idx_joint1 n c a b),
    val_main_v2_apply, (show idx_main_v2 (ix5 n c (1 : Fin 4) a b) = _ from idx_split n c 1 a b)]
  rfl

/-- Joint 2 of the third array, as the reference slices it out, is joint 2 of the row. -/
theorem c_joint2 (x : (⟨S400000x128, .f32⟩ : BufTy).Contents (Elt Ideal)) (n : Fin 400000) (c : Fin 2) (a b : Fin 4) :
    val_main_v35 (F := Ideal) x (ix4 n c a b) = ent (rowA x n) c 2 a b := by
  rw [val_main_v35_apply, (show idx_main_v35 (ix4 n c a b) = _ from idx_drop n c a b),
    val_main_v34_apply, (show idx_main_v34 (ix5 n c (0 : Fin 1) a b) = _ from idx_joint2 n c a b),
    val_main_v2_apply, (show idx_main_v2 (ix5 n c (2 : Fin 4) a b) = _ from idx_split n c 2 a b)]
  rfl

/-- Joint 3 of the third array, as the reference slices it out, is joint 3 of the row. -/
theorem c_joint3 (x : (⟨S400000x128, .f32⟩ : BufTy).Contents (Elt Ideal)) (n : Fin 400000) (c : Fin 2) (a b : Fin 4) :
    val_main_v38 (F := Ideal) x (ix4 n c a b) = ent (rowA x n) c 3 a b := by
  rw [val_main_v38_apply, (show idx_main_v38 (ix4 n c a b) = _ from idx_drop n c a b),
    val_main_v37_apply, (show idx_main_v37 (ix5 n c (0 : Fin 1) a b) = _ from idx_joint3 n c a b),
    val_main_v2_apply, (show idx_main_v2 (ix5 n c (3 : Fin 4) a b) = _ from idx_split n c 3 a b)]
  rfl

/-- The first product: P0·P1. -/
theorem c_prod1 (x : (⟨S400000x128, .f32⟩ : BufTy).Contents (Elt Ideal)) (n : Fin 400000) (c : Fin 2) (a b : Fin 4) :
    val_main_v33 (F := Ideal) x (ix4 n c a b) = ∑ k1 : Fin 4, ent (rowA x n) c 0 a k1 * ent (rowA x n) c 1 k1 b := by
  rw [val_main_v33_apply]
  refine Finset.sum_congr rfl fun k _ => ?_
  rw [(show lidx_main_v33 (ix4 n c a b) k = _ from idx_left n c a b k),
    (show ridx_main_v33 (ix4 n c a b) k = _ from idx_right n c a b k),
    c_joint0, c_joint1]

/-- The second product: (P0·P1)·P2. -/
theorem c_prod2 (x : (⟨S400000x128, .f32⟩ : BufTy).Contents (Elt Ideal)) (n : Fin 400000) (c : Fin 2) (a b : Fin 4) :
    val_main_v36 (F := Ideal) x (ix4 n c a b)
      = ∑ k2 : Fin 4, (∑ k1 : Fin 4, ent (rowA x n) c 0 a k1 * ent (rowA x n) c 1 k1 k2) * ent (rowA x n) c 2 k2 b := by
  rw [val_main_v36_apply]
  refine Finset.sum_congr rfl fun k _ => ?_
  rw [(show lidx_main_v36 (ix4 n c a b) k = _ from idx_left n c a b k),
    (show ridx_main_v36 (ix4 n c a b) k = _ from idx_right n c a b k),
    c_prod1, c_joint2]

/-- The third product, ((P0·P1)·P2)·P3, is the chain product. -/
theorem c_prod3 (x : (⟨S400000x128, .f32⟩ : BufTy).Contents (Elt Ideal)) (n : Fin 400000) (c : Fin 2) (a b : Fin 4) :
    val_main_v39 (F := Ideal) x (ix4 n c a b) = chain (rowA x n) c a b := by
  rw [val_main_v39_apply]
  unfold chain
  refine Finset.sum_congr rfl fun k _ => ?_
  rw [(show lidx_main_v39 (ix4 n c a b) k = _ from idx_left n c a b k),
    (show ridx_main_v39 (ix4 n c a b) k = _ from idx_right n c a b k),
    c_prod2, c_joint3]

/-! ## The positions and the two losses -/

/-- The reference's position tensor of the first pose array at row n, chain c, coordinate i. -/
theorem v15_apply (x : (⟨S400000x128, .f32⟩ : BufTy).Contents (Elt Ideal)) (n : Fin 400000) (c : Fin 2) (i : Fin 3) :
    val_main_v15 (F := Ideal) x (ix3 n c i) = pos (rowA x n) c i := by
  rw [val_main_v15_apply, (show idx_main_v15 (ix3 n c i) = _ from idx_drop3 n c i),
    val_main_v14_apply, (show idx_main_v14 (ix4 n c i (0 : Fin 1)) = _ from idx_col3 n c i), a_prod3]
  rfl

/-- The same for the second pose array. -/
theorem v28_apply (x : (⟨S400000x128, .f32⟩ : BufTy).Contents (Elt Ideal)) (n : Fin 400000) (c : Fin 2) (i : Fin 3) :
    val_main_v28 (F := Ideal) x (ix3 n c i) = pos (rowA x n) c i := by
  rw [val_main_v28_apply, (show idx_main_v28 (ix3 n c i) = _ from idx_drop3 n c i),
    val_main_v27_apply, (show idx_main_v27 (ix4 n c i (0 : Fin 1)) = _ from idx_col3 n c i), b_prod3]
  rfl

/-- The same for the third pose array. -/
theorem v41_apply (x : (⟨S400000x128, .f32⟩ : BufTy).Contents (Elt Ideal)) (n : Fin 400000) (c : Fin 2) (i : Fin 3) :
    val_main_v41 (F := Ideal) x (ix3 n c i) = pos (rowA x n) c i := by
  rw [val_main_v41_apply, (show idx_main_v41 (ix3 n c i) = _ from idx_drop3 n c i),
    val_main_v40_apply, (show idx_main_v40 (ix4 n c i (0 : Fin 1)) = _ from idx_col3 n c i), c_prod3]
  rfl

/-- The reference's first result is the position loss. -/
theorem ref_pos (x0 x1 : (⟨S400000x128, .f32⟩ : BufTy).Contents (Elt Ideal)) :
    val_main_v47 (F := Ideal) x0 x1 = fun _ => posLoss x0 x1 := by
  funext i
  rw [val_main_v47_apply, val_main_v46_apply, val_main_cst_apply, val_main_cst_0_apply]
  unfold posLoss count
  show Ideal.div (Ideal.ofBits .f32 0x00000000#32 + ∑ j : S400000x2x3.Idx, val_main_v45 (F := Ideal) x0 x1 j)
      (Ideal.ofBits .f32 0x4A127C00#32) = _
  rw [Ideal.ofBits_zero_f32, zero_add]
  refine congrArg (fun s => Ideal.div s (Ideal.ofBits .f32 0x4A127C00#32)) ?_
  refine (sum_idx3 (n0 := 400000) (n1 := 2) (n2 := 3) _).trans ?_
  refine Finset.sum_congr rfl fun n _ => ?_
  unfold rowPos
  refine Finset.sum_congr rfl fun c _ => Finset.sum_congr rfl fun k _ => ?_
  rw [val_main_v45_apply, val_main_v44_apply, v15_apply, v28_apply]
  rfl

/-- The reference's second result is the velocity loss. -/
theorem ref_vel (x0 x1 x2 : (⟨S400000x128, .f32⟩ : BufTy).Contents (Elt Ideal)) :
    val_main_v51 (F := Ideal) x0 x1 x2 = fun _ => velLoss x0 x1 x2 := by
  funext i
  rw [val_main_v51_apply, val_main_v50_apply, val_main_cst_1_apply, val_main_cst_2_apply]
  unfold velLoss count
  show Ideal.div (Ideal.ofBits .f32 0x00000000#32 + ∑ j : S400000x2x3.Idx, val_main_v49 (F := Ideal) x0 x1 x2 j)
      (Ideal.ofBits .f32 0x4A127C00#32) = _
  rw [Ideal.ofBits_zero_f32, zero_add]
  refine congrArg (fun s => Ideal.div s (Ideal.ofBits .f32 0x4A127C00#32)) ?_
  refine (sum_idx3 (n0 := 400000) (n1 := 2) (n2 := 3) _).trans ?_
  refine Finset.sum_congr rfl fun n _ => ?_
  unfold rowVel
  refine Finset.sum_congr rfl fun c _ => Finset.sum_congr rfl fun k _ => ?_
  rw [val_main_v49_apply, val_main_v48_apply, val_main_v43_apply, val_main_v42_apply, v15_apply, v28_apply, v41_apply]
  rfl

end Cert.FkLoss.Ref

end
-- ==== Proof.Pieces.lean ====
/-
  What each control case of the kernel body leaves in the two carried accumulators and, at the last grid point, in the
  two output blocks, as the body's pure payload terms of the three input blocks and of what the point before left.
  Every store covers its one-element buffer whole and every load reads a whole buffer, so each buffer ends at its last
  store's payload, the payload's loads replaced by what was loaded.
-/
import proofs.«113168_j64149631533149_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.FkLoss.Pieces

open Cert.KernelIdeal Cert.KernelIdeal.Gen

variable {F : FTy → Type} [FloatOps F]

theorem hz : (![0, 0] : Fin 2 → Nat) = fun _ => 0 := funext fun a => by fin_cases a <;> rfl

/-- At the first grid point the position accumulator is zeroed and then takes the block's share: it ends at that share added to the zero splat. -/
theorem accPos_first (c : Dev nD) (i : grid0.Coords) (a1 : Memref sig .tc .vmem S8000x128 .f32) (h1 : a1.IsWhole) (a2 : Memref sig .tc .vmem S8000x128 .f32) (h2 : a2.IsWhole) (a3 : Memref sig .tc .vmem S8000x128 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i)
    (x0 x1 x2 : Vec F S8000x128 .f32) :
    sout0_A_0 c i a1 h1 a2 h2 a3 h3 a4 h4 a5 h5 a6 h6 a7 h7 hc0 hc1 x0 x1 x2
      = k0_pay1 (k0_pay15 (k0_pay7 x0) (k0_pay8 x1) (k0_pay9 x1) (k0_pay10 x1)) (k0_pay5 (F := F)) := by
  unfold sout0_A_0
  rw [View.read_writes_eq_canon _ _ _ (scover0_A_0 c i a1 h1 a2 h2 a3 h3 a4 h4 a5 h5 a6 h6 a7 h7 hc0 hc1 x0 x1 x2)]
  unfold kernelRun0_A
  dsimp only
  sl_unfold_words
  simp only [View.canon_unit_zero (S := S1x1) hz, View.canon_cons_unit_zero (S := S1x1) hz, View.readCov_unit_zero (S := S1x1) _ hz,
    View.readAt_eq_ld, h1.read_unread, h2.read_unread, h3.read_unread, h4.read_unread, h5.read_unread, h6.read_unread,
    h7.read_unread, View.ld_unit_zero (S := S1x1) hz, View.ld_unit_zero (S := S8000x128) hz]

/-- Likewise the velocity accumulator at the first grid point. -/
theorem accVel_first (c : Dev nD) (i : grid0.Coords) (a1 : Memref sig .tc .vmem S8000x128 .f32) (h1 : a1.IsWhole) (a2 : Memref sig .tc .vmem S8000x128 .f32) (h2 : a2.IsWhole) (a3 : Memref sig .tc .vmem S8000x128 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i)
    (x0 x1 x2 : Vec F S8000x128 .f32) :
    sout0_A_1 c i a1 h1 a2 h2 a3 h3 a4 h4 a5 h5 a6 h6 a7 h7 hc0 hc1 x0 x1 x2
      = k0_pay2 (k0_pay13 (k0_pay8 x1) (k0_pay9 x1) (k0_pay10 x1) x2) (k0_pay14 (k0_pay7 x0) x2) (k0_pay6 (F := F)) := by
  unfold sout0_A_1
  rw [View.read_writes_eq_canon _ _ _ (scover0_A_1 c i a1 h1 a2 h2 a3 h3 a4 h4 a5 h5 a6 h6 a7 h7 hc0 hc1 x0 x1 x2)]
  unfold kernelRun0_A
  dsimp only
  sl_unfold_words
  simp only [View.canon_unit_zero (S := S1x1) hz, View.canon_cons_unit_zero (S := S1x1) hz, View.readCov_unit_zero (S := S1x1) _ hz,
    View.readAt_eq_ld, h1.read_unread, h2.read_unread, h3.read_unread, h4.read_unread, h5.read_unread, h6.read_unread,
    h7.read_unread, View.ld_unit_zero (S := S1x1) hz, View.ld_unit_zero (S := S8000x128) hz]

/-- At a middle grid point the position accumulator ends at what the point before left plus the block's share. -/
theorem accPos_mid (c : Dev nD) (i : grid0.Coords) (a1 : Memref sig .tc .vmem S8000x128 .f32) (h1 : a1.IsWhole) (a2 : Memref sig .tc .vmem S8000x128 .f32) (h2 : a2.IsWhole) (a3 : Memref sig .tc .vmem S8000x128 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i)
    (x0 x1 x2 : Vec F S8000x128 .f32) (xs0 xs1 : Vec F S1x1 .f32) :
    sout0_B_0 c i a1 h1 a2 h2 a3 h3 a4 h4 a5 h5 a6 h6 a7 h7 hc0 hc1 x0 x1 x2 xs0 xs1
      = k0_pay1 (k0_pay15 (k0_pay7 x0) (k0_pay8 x1) (k0_pay9 x1) (k0_pay10 x1)) xs0 := by
  unfold sout0_B_0
  rw [View.read_writes_eq_canon _ _ _ (scover0_B_0 c i a1 h1 a2 h2 a3 h3 a4 h4 a5 h5 a6 h6 a7 h7 hc0 hc1 x0 x1 x2 xs0 xs1)]
  unfold kernelRun0_B
  dsimp only
  sl_unfold_words
  simp only [View.canon_unit_zero (S := S1x1) hz, View.canon_cons_unit_zero (S := S1x1) hz, View.readCov_unit_zero (S := S1x1) _ hz,
    View.readAt_eq_ld, h1.read_unread, h2.read_unread, h3.read_unread, h4.read_unread, h5.read_unread, h6.read_unread,
    h7.read_unread, View.ld_unit_zero (S := S1x1) hz, View.ld_unit_zero (S := S8000x128) hz]

/-- Likewise the velocity accumulator at a middle grid point. -/
theorem accVel_mid (c : Dev nD) (i : grid0.Coords) (a1 : Memref sig .tc .vmem S8000x128 .f32) (h1 : a1.IsWhole) (a2 : Memref sig .tc .vmem S8000x128 .f32) (h2 : a2.IsWhole) (a3 : Memref sig .tc .vmem S8000x128 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i)
    (x0 x1 x2 : Vec F S8000x128 .f32) (xs0 xs1 : Vec F S1x1 .f32) :
    sout0_B_1 c i a1 h1 a2 h2 a3 h3 a4 h4 a5 h5 a6 h6 a7 h7 hc0 hc1 x0 x1 x2 xs0 xs1
      = k0_pay2 (k0_pay13 (k0_pay8 x1) (k0_pay9 x1) (k0_pay10 x1) x2) (k0_pay14 (k0_pay7 x0) x2) xs1 := by
  unfold sout0_B_1
  rw [View.read_writes_eq_canon _ _ _ (scover0_B_1 c i a1 h1 a2 h2 a3 h3 a4 h4 a5 h5 a6 h6 a7 h7 hc0 hc1 x0 x1 x2 xs0 xs1)]
  unfold kernelRun0_B
  dsimp only
  sl_unfold_words
  simp only [View.canon_unit_zero (S := S1x1) hz, View.canon_cons_unit_zero (S := S1x1) hz, View.readCov_unit_zero (S := S1x1) _ hz,
    View.readAt_eq_ld, h1.read_unread, h2.read_unread, h3.read_unread, h4.read_unread, h5.read_unread, h6.read_unread,
    h7.read_unread, View.ld_unit_zero (S := S1x1) hz, View.ld_unit_zero (S := S8000x128) hz]

/-- At the last grid point the position accumulator takes the last block's share in the same way … -/
theorem accPos_last (c : Dev nD) (i : grid0.Coords) (a1 : Memref sig .tc .vmem S8000x128 .f32) (h1 : a1.IsWhole) (a2 : Memref sig .tc .vmem S8000x128 .f32) (h2 : a2.IsWhole) (a3 : Memref sig .tc .vmem S8000x128 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 x2 : Vec F S8000x128 .f32) (xs0 xs1 : Vec F S1x1 .f32) :
    sout0_C_0 c i a1 h1 a2 h2 a3 h3 a4 h4 a5 h5 a6 h6 a7 h7 hc0 hc1 x0 x1 x2 xs0 xs1
      = k0_pay1 (k0_pay15 (k0_pay7 x0) (k0_pay8 x1) (k0_pay9 x1) (k0_pay10 x1)) xs0 := by
  unfold sout0_C_0
  rw [View.read_writes_eq_canon _ _ _ (scover0_C_0 c i a1 h1 a2 h2 a3 h3 a4 h4 a5 h5 a6 h6 a7 h7 hc0 hc1 x0 x1 x2 xs0 xs1)]
  unfold kernelRun0_C
  dsimp only
  sl_unfold_words
  simp only [View.canon_unit_zero (S := S1x1) hz, View.canon_cons_unit_zero (S := S1x1) hz, View.readCov_unit_zero (S := S1x1) _ hz,
    View.readAt_eq_ld, h1.read_unread, h2.read_unread, h3.read_unread, h4.read_unread, h5.read_unread, h6.read_unread,
    h7.read_unread, View.ld_unit_zero (S := S1x1) hz, View.ld_unit_zero (S := S8000x128) hz]

/-- … and so does the velocity accumulator. -/
theorem accVel_last (c : Dev nD) (i : grid0.Coords) (a1 : Memref sig .tc .vmem S8000x128 .f32) (h1 : a1.IsWhole) (a2 : Memref sig .tc .vmem S8000x128 .f32) (h2 : a2.IsWhole) (a3 : Memref sig .tc .vmem S8000x128 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 x2 : Vec F S8000x128 .f32) (xs0 xs1 : Vec F S1x1 .f32) :
    sout0_C_1 c i a1 h1 a2 h2 a3 h3 a4 h4 a5 h5 a6 h6 a7 h7 hc0 hc1 x0 x1 x2 xs0 xs1
      = k0_pay2 (k0_pay13 (k0_pay8 x1) (k0_pay9 x1) (k0_pay10 x1) x2) (k0_pay14 (k0_pay7 x0) x2) xs1 := by
  unfold sout0_C_1
  rw [View.read_writes_eq_canon _ _ _ (scover0_C_1 c i a1 h1 a2 h2 a3 h3 a4 h4 a5 h5 a6 h6 a7 h7 hc0 hc1 x0 x1 x2 xs0 xs1)]
  unfold kernelRun0_C
  dsimp only
  sl_unfold_words
  simp only [View.canon_unit_zero (S := S1x1) hz, View.canon_cons_unit_zero (S := S1x1) hz, View.readCov_unit_zero (S := S1x1) _ hz,
    View.readAt_eq_ld, h1.read_unread, h2.read_unread, h3.read_unread, h4.read_unread, h5.read_unread, h6.read_unread,
    h7.read_unread, View.ld_unit_zero (S := S1x1) hz, View.ld_unit_zero (S := S8000x128) hz]

/-- The first output block, written at the last grid point only: the finished position accumulator divided by the count. -/
theorem outPos_last (c : Dev nD) (i : grid0.Coords) (a1 : Memref sig .tc .vmem S8000x128 .f32) (h1 : a1.IsWhole) (a2 : Memref sig .tc .vmem S8000x128 .f32) (h2 : a2.IsWhole) (a3 : Memref sig .tc .vmem S8000x128 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 x2 : Vec F S8000x128 .f32) (xs0 xs1 : Vec F S1x1 .f32) :
    out0_C_3 c i a1 h1 a2 h2 a3 h3 a4 h4 a5 h5 a6 h6 a7 h7 hc0 hc1 x0 x1 x2 xs0 xs1
      = k0_pay3 (k0_pay1 (k0_pay15 (k0_pay7 x0) (k0_pay8 x1) (k0_pay9 x1) (k0_pay10 x1)) xs0) := by
  unfold out0_C_3
  rw [View.read_writes_eq_canon _ _ _ (cover0_C_3 c i a1 h1 a2 h2 a3 h3 a4 h4 a5 h5 a6 h6 a7 h7 hc0 hc1 x0 x1 x2 xs0 xs1)]
  unfold kernelRun0_C
  dsimp only
  sl_unfold_words
  simp only [View.canon_unit_zero (S := S1x1) hz, View.canon_cons_unit_zero (S := S1x1) hz, View.readCov_unit_zero (S := S1x1) _ hz,
    View.readAt_eq_ld, h1.read_unread, h2.read_unread, h3.read_unread, h4.read_unread, h5.read_unread, h6.read_unread,
    h7.read_unread, View.ld_unit_zero (S := S1x1) hz, View.ld_unit_zero (S := S8000x128) hz]

/-- The second output block: the finished velocity accumulator divided by the count. -/
theorem outVel_last (c : Dev nD) (i : grid0.Coords) (a1 : Memref sig .tc .vmem S8000x128 .f32) (h1 : a1.IsWhole) (a2 : Memref sig .tc .vmem S8000x128 .f32) (h2 : a2.IsWhole) (a3 : Memref sig .tc .vmem S8000x128 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 x2 : Vec F S8000x128 .f32) (xs0 xs1 : Vec F S1x1 .f32) :
    out0_C_4 c i a1 h1 a2 h2 a3 h3 a4 h4 a5 h5 a6 h6 a7 h7 hc0 hc1 x0 x1 x2 xs0 xs1
      = k0_pay4 (k0_pay2 (k0_pay13 (k0_pay8 x1) (k0_pay9 x1) (k0_pay10 x1) x2) (k0_pay14 (k0_pay7 x0) x2) xs1) := by
  unfold out0_C_4
  rw [View.read_writes_eq_canon _ _ _ (cover0_C_4 c i a1 h1 a2 h2 a3 h3 a4 h4 a5 h5 a6 h6 a7 h7 hc0 hc1 x0 x1 x2 xs0 xs1)]
  unfold kernelRun0_C
  dsimp only
  sl_unfold_words
  simp only [View.canon_unit_zero (S := S1x1) hz, View.canon_cons_unit_zero (S := S1x1) hz, View.readCov_unit_zero (S := S1x1) _ hz,
    View.readAt_eq_ld, h1.read_unread, h2.read_unread, h3.read_unread, h4.read_unread, h5.read_unread, h6.read_unread,
    h7.read_unread, View.ld_unit_zero (S := S1x1) hz, View.ld_unit_zero (S := S8000x128) hz]

end Cert.FkLoss.Pieces

end
-- ==== Proof.BodyValue.lean ====
/-
  What the kernel body computes from one block of each pose array, read at the extended reals: the end-effector
  positions entry by entry, and from them the block's shares of the two squared errors added to the accumulators.
-/
import proofs.«113168_j64149631533149_1_alg».proof.Proof.Gen.KernelIdeal.Skeleton
import proofs.«113168_j64149631533149_1_alg».proof.Proof.Spec
import Idealize.ShloMosaic.Lib.Pipeline.Value
import Idealize.ShloMosaic.Lib.ValueLayout
import Idealize.ShloMosaic.PureOps.Ideal.Laws

noncomputable section

open scoped BigOperators

namespace Cert.FkLoss.Body

open Idealize.ShloMosaic Idealize.ShloMosaic.ValueIdx Cert.KernelIdeal Cert.KernelIdeal.Gen Cert.FkLoss

/-- Joint j of a block, as a [8000,2,4,4] tensor: the reshape to [8000,2,4,4,4], the slice at offset j on axis 2 and the
    cast that drops the unit axis read, at (r, c, a, b), entry (a, b) of joint j of chain c of row r. -/
theorem joint_apply (x : S8000x128.Idx → EReal) (o : Nat) (j : Fin 4) (hj : j.val = o)
    (h1 : S8000x128.ShapeCasts S8000x2x4x4x4) (hs : S8000x2x4x4x4.Slices ![0, 0, o, 0, 0] S8000x2x1x4x4)
    (h2 : S8000x2x1x4x4.ShapeCasts S8000x2x4x4) (r : Fin 8000) (c : Fin 2) (a b : Fin 4) :
    shapeCast S8000x2x4x4 (extractStridedSlice S8000x2x1x4x4 ![0, 0, o, 0, 0] (shapeCast S8000x2x4x4x4 x h1) hs) h2 (ix4 r c a b)
      = ent (rowB x r) c j a b := by
  have hr := r.isLt; have hc := c.isLt; have hjl := j.isLt; have ha := a.isLt; have hb := b.isLt
  refine (shapeCast_apply _ h2 (ix4 r c a b) (ix5 r c (0 : Fin 1) a b) ?_).trans ?_
  · rw [Shape.rowMajor_val_five, Shape.rowMajor_val_four]
    show (((r.val * 2 + c.val) * 1 + 0) * 4 + a.val) * 4 + b.val = ((r.val * 2 + c.val) * 4 + a.val) * 4 + b.val
    omega
  refine (extractStridedSlice_apply _ _ hs (ix5 r c (0 : Fin 1) a b) (ix5 r c j a b) (fun ax => ?_)).trans ?_
  · match ax with
    | ⟨0, _⟩ => exact (Nat.zero_add _).symm
    | ⟨1, _⟩ => exact (Nat.zero_add _).symm
    | ⟨2, _⟩ => show j.val = o + 0; omega
    | ⟨3, _⟩ => exact (Nat.zero_add _).symm
    | ⟨4, _⟩ => exact (Nat.zero_add _).symm
  refine (shapeCast_apply x h1 (ix5 r c j a b)
    (ix2 r (⟨c.val * 64 + j.val * 16 + a.val * 4 + b.val, by omega⟩ : Fin 128)) ?_).trans ?_
  · rw [Shape.rowMajor_val_two, Shape.rowMajor_val_five]
    show r.val * 128 + (c.val * 64 + j.val * 16 + a.val * 4 + b.val)
      = (((r.val * 2 + c.val) * 4 + j.val) * 4 + a.val) * 4 + b.val
    omega
  rfl

/-- One matrix product of the chain: the left factor broadcast along a new last axis, the right along a new axis 2,
    multiplied entrywise and summed over axis 3, reads at (r, c, i, l) the sum over k of left (i, k) · right (k, l). -/
theorem prod_apply (M Jm : S8000x2x4x4.Idx → EReal)
    (h1 : S8000x2x4x4.ShapeCasts S8000x2x4x4x1) (h2 : S8000x2x4x4.ShapeCasts S8000x2x1x4x4)
    (b1 : S8000x2x4x4x1.Broadcasts S8000x2x4x4x4) (b2 : S8000x2x1x4x4.Broadcasts S8000x2x4x4x4)
    (hr : S8000x2x4x4x4.Reduces [3] S8000x2x4x4) (hφ : FKind.Formats .f32)
    (hacc : (0x00000000#32 : BitVec 32) = FKind.add.neutral .f32 hφ)
    (r : Fin 8000) (c : Fin 2) (i l : Fin 4) :
    multiReduction (F := Ideal) .add [3] S8000x2x4x4
        (mulf (broadcastTo S8000x2x4x4x4 (shapeCast S8000x2x4x4x1 (M : FVec Ideal S8000x2x4x4 .f32) h1) b1)
          (broadcastTo S8000x2x4x4x4 (shapeCast S8000x2x1x4x4 (Jm : FVec Ideal S8000x2x4x4 .f32) h2) b2))
        0x00000000#32 hr hφ hacc (ix4 r c i l)
      = ∑ k : Fin 4, M (ix4 r c i k) * Jm (ix4 r c k l) := by
  have hrl := r.isLt; have hc := c.isLt; have hi := i.isLt; have hl := l.isLt
  refine (Ideal.multiReduction_add_single _ _ hr hφ hacc (ix4 r c i l)).trans ?_
  refine Finset.sum_congr rfl fun k _ => ?_
  have hk := k.isLt
  refine congrArg₂ (· * ·) ?_ ?_
  · refine (broadcastTo_apply _ b1 _ (ix5 r c i k (0 : Fin 1)) (fun ax => ?_)).trans ?_
    · match ax with
      | ⟨0, _⟩ => rfl
      | ⟨1, _⟩ => rfl
      | ⟨2, _⟩ => rfl
      | ⟨3, _⟩ => rfl
      | ⟨4, _⟩ => rfl
    refine shapeCast_apply M h1 _ (ix4 r c i k) ?_
    rw [Shape.rowMajor_val_four, Shape.rowMajor_val_five]
    show ((r.val * 2 + c.val) * 4 + i.val) * 4 + k.val = ((((r.val * 2 + c.val) * 4 + i.val) * 4 + k.val) * 1 + 0)
    omega
  · refine (broadcastTo_apply _ b2 _ (ix5 r c (0 : Fin 1) k l) (fun ax => ?_)).trans ?_
    · match ax with
      | ⟨0, _⟩ => rfl
      | ⟨1, _⟩ => rfl
      | ⟨2, _⟩ => rfl
      | ⟨3, _⟩ => rfl
      | ⟨4, _⟩ => rfl
    refine shapeCast_apply Jm h2 _ (ix4 r c k l) ?_
    rw [Shape.rowMajor_val_four, Shape.rowMajor_val_five]
    show ((r.val * 2 + c.val) * 4 + k.val) * 4 + l.val = ((((r.val * 2 + c.val) * 1 + 0) * 4 + k.val) * 4 + l.val)
    omega

/-- The end-effector read: rows 0..2 of column 3 of a [8000,2,4,4] tensor, with the unit axis dropped. -/
theorem col3_apply (M : S8000x2x4x4.Idx → EReal) (hs : S8000x2x4x4.Slices ![0, 0, 0, 3] S8000x2x3x1)
    (h : S8000x2x3x1.ShapeCasts S8000x2x3) (r : Fin 8000) (c : Fin 2) (i : Fin 3) :
    shapeCast S8000x2x3 (extractStridedSlice S8000x2x3x1 ![0, 0, 0, 3] M hs) h (ix3 r c i)
      = M (ix4 r c (⟨i.val, by have := i.isLt; omega⟩ : Fin 4) (3 : Fin 4)) := by
  have hrl := r.isLt; have hc := c.isLt; have hi := i.isLt
  refine (shapeCast_apply _ h (ix3 r c i) (ix4 r c i (0 : Fin 1)) ?_).trans ?_
  · rw [Shape.rowMajor_val_four, Shape.rowMajor_val_three]
    show ((r.val * 2 + c.val) * 3 + i.val) * 1 + 0 = (r.val * 2 + c.val) * 3 + i.val
    omega
  refine extractStridedSlice_apply _ M hs (ix4 r c i (0 : Fin 1)) _ (fun ax => ?_)
  match ax with
  | ⟨0, _⟩ => exact (Nat.zero_add _).symm
  | ⟨1, _⟩ => exact (Nat.zero_add _).symm
  | ⟨2, _⟩ => exact (Nat.zero_add _).symm
  | ⟨3, _⟩ => rfl

/-- The all-axes sum of the body: a [8000,2,3] tensor cast to [1,8000,2,3], summed over axes 1..3 into one entry, and that
    entry read out, is the triple sum over rows, chains and coordinates. -/
theorem total_apply (V : S8000x2x3.Idx → EReal) (h1 : S8000x2x3.ShapeCasts S1x8000x2x3)
    (hr : S1x8000x2x3.Reduces [1, 2, 3] S1) (hφ : FKind.Formats .f32)
    (hacc : (0x00000000#32 : BitVec 32) = FKind.add.neutral .f32 hφ) (h2 : S1.ShapeCasts S1x1x1x1)
    (hp : ∀ a, (![0, 0, 0, 0] : Fin 4 → Nat) a < S1x1x1x1.size a) :
    extractAt ![0, 0, 0, 0]
        (shapeCast S1x1x1x1
          (multiReduction (F := Ideal) .add [1, 2, 3] S1 (shapeCast S1x8000x2x3 (V : FVec Ideal S8000x2x3 .f32) h1)
            0x00000000#32 hr hφ hacc) h2) hp
      = ∑ r : Fin 8000, ∑ c : Fin 2, ∑ i : Fin 3, V (ix3 r c i) := by
  unfold extractAt
  refine (shapeCast_apply _ h2 _ (ix1 (0 : Fin 1)) ?_).trans ?_
  · rw [Shape.rowMajor_val_one, Shape.rowMajor_val_four]
    rfl
  refine (Ideal.multiReduction_add_total _ _ hr (fun b => ?_) hφ hacc _).trans ?_
  · match b with
    | ⟨0, _⟩ => rfl
  refine (sum_idx4 _).trans ?_
  refine (Fin.sum_univ_one _).trans ?_
  refine Finset.sum_congr rfl fun r _ => Finset.sum_congr rfl fun c _ => Finset.sum_congr rfl fun i _ => ?_
  exact shapeCast_abc_1abc_apply V h1 0 r c i

/-- The body's position tensor of a block, at row r, chain c, coordinate i: the end-effector position of that row. -/
theorem pay7_apply (x : Vec Ideal S8000x128 .f32) (r : Fin 8000) (c : Fin 2) (i : Fin 3) :
    k0_pay7 (F := Ideal) x (ix3 r c i) = pos (rowB x r) c i := by
  unfold k0_pay7
  refine (col3_apply _ _ _ r c i).trans ?_
  refine (prod_apply _ _ _ _ _ _ _ _ _ r c _ 3).trans ?_
  unfold pos chain
  refine Finset.sum_congr rfl fun k3 _ => ?_
  refine congrArg₂ (· * ·) ?_ (joint_apply x 3 3 rfl _ _ _ r c k3 3)
  refine (prod_apply _ _ _ _ _ _ _ _ _ r c _ k3).trans ?_
  refine Finset.sum_congr rfl fun k2 _ => ?_
  refine congrArg₂ (· * ·) ?_ (joint_apply x 2 2 rfl _ _ _ r c k2 k3)
  refine (prod_apply _ _ _ _ _ _ _ _ _ r c _ k2).trans ?_
  refine Finset.sum_congr rfl fun k1 _ => ?_
  exact congrArg₂ (· * ·) (joint_apply x 0 0 rfl _ _ _ r c _ k1) (joint_apply x 1 1 rfl _ _ _ r c k1 k2)

/-- The third pose's position tensor is the same function of its block as the first's. -/
theorem pay12_eq (x : Vec Ideal S8000x128 .f32) : k0_pay12 (F := Ideal) x = k0_pay7 (F := Ideal) x := by
  rfl

/-- The second pose's position tensor, computed across the body's two parts, is that function too. -/
theorem pay11_eq (x : Vec Ideal S8000x128 .f32) :
    k0_pay11 (F := Ideal) (k0_pay8 x) (k0_pay9 x) (k0_pay10 x) = k0_pay7 (F := Ideal) x := by
  rfl

/-- The squared differences of two position tensors, summed over the whole block and added to an accumulator: the
    body's accumulator update over any two tensors. -/
theorem accum_sq (u v : S8000x2x3.Idx → EReal) (acc : S1x1.Idx → EReal)
    (h1 : S8000x2x3.ShapeCasts S1x8000x2x3) (hr : S1x8000x2x3.Reduces [1, 2, 3] S1) (hφ : FKind.Formats .f32)
    (hacc : (0x00000000#32 : BitVec 32) = FKind.add.neutral .f32 hφ) (h2 : S1.ShapeCasts S1x1x1x1)
    (hp : ∀ a, (![0, 0, 0, 0] : Fin 4 → Nat) a < S1x1x1x1.size a) (h3 : S1x1.ShapeCasts S1x1) (y : S1x1.Idx) :
    shapeCast S1x1
        (addf (acc : FVec Ideal S1x1 .f32)
          (broadcast S1x1 (extractAt ![0, 0, 0, 0]
            (shapeCast S1x1x1x1
              (multiReduction (F := Ideal) .add [1, 2, 3] S1
                (shapeCast S1x8000x2x3 (mulf (subf (u : FVec Ideal S8000x2x3 .f32) (v : FVec Ideal S8000x2x3 .f32))
                  (subf (u : FVec Ideal S8000x2x3 .f32) (v : FVec Ideal S8000x2x3 .f32))) h1)
                0x00000000#32 hr hφ hacc) h2) hp))) h3 y
      = acc y + ∑ r : Fin 8000, ∑ c : Fin 2, ∑ i : Fin 3,
          (u (ix3 r c i) - v (ix3 r c i)) * (u (ix3 r c i) - v (ix3 r c i)) := by
  refine (congrFun (shapeCast_self _ h3) y).trans ?_
  refine (addf_apply _ _ y).trans ?_
  refine congrArg (acc y + ·) ?_
  refine (broadcast_apply _ y).trans ?_
  refine (total_apply _ h1 hr hφ hacc h2 hp).trans ?_
  refine Finset.sum_congr rfl fun r _ => Finset.sum_congr rfl fun c _ => Finset.sum_congr rfl fun i _ => ?_
  refine (mulf_apply _ _ _).trans ?_
  exact congrArg₂ (· * ·) (subf_apply _ _ _) (subf_apply _ _ _)

/-- The position accumulator after a block: what it held plus the block's share of the position error. -/
theorem acc_pos (x0 x1 : Vec Ideal S8000x128 .f32) (acc : Vec Ideal S1x1 .f32) :
    k0_pay1 (F := Ideal) (k0_pay15 (k0_pay7 x0) (k0_pay8 x1) (k0_pay9 x1) (k0_pay10 x1)) acc
      = fun y => acc y + blockPos x0 x1 := by
  funext y
  unfold k0_pay1 k0_pay15
  refine (accum_sq (k0_pay7 (F := Ideal) x0) (k0_pay11 (F := Ideal) (k0_pay8 x1) (k0_pay9 x1) (k0_pay10 x1)) acc
    _ _ _ _ _ _ _ y).trans ?_
  refine congrArg (acc y + ·) ?_
  unfold blockPos rowPos posErr
  refine Finset.sum_congr rfl fun r _ => Finset.sum_congr rfl fun c _ => Finset.sum_congr rfl fun i _ => ?_
  have e0 : k0_pay7 (F := Ideal) x0 (ix3 r c i) = pos (rowB x0 r) c i := pay7_apply x0 r c i
  have e1 : k0_pay11 (F := Ideal) (k0_pay8 x1) (k0_pay9 x1) (k0_pay10 x1) (ix3 r c i) = pos (rowB x1 r) c i :=
    (congrFun (pay11_eq x1) (ix3 r c i)).trans (pay7_apply x1 r c i)
  exact congrArg₂ (· * ·) (congrArg₂ (· - ·) e0 e1) (congrArg₂ (· - ·) e0 e1)

/-- The velocity accumulator after a block: what it held plus the block's share of the velocity error. -/
theorem acc_vel (x0 x1 x2 : Vec Ideal S8000x128 .f32) (acc : Vec Ideal S1x1 .f32) :
    k0_pay2 (F := Ideal) (k0_pay13 (k0_pay8 x1) (k0_pay9 x1) (k0_pay10 x1) x2) (k0_pay14 (k0_pay7 x0) x2) acc
      = fun y => acc y + blockVel x0 x1 x2 := by
  funext y
  unfold k0_pay2
  refine (accum_sq (k0_pay14 (F := Ideal) (k0_pay7 x0) x2)
    (k0_pay13 (F := Ideal) (k0_pay8 x1) (k0_pay9 x1) (k0_pay10 x1) x2) acc _ _ _ _ _ _ _ y).trans ?_
  refine congrArg (acc y + ·) ?_
  unfold blockVel rowVel velErr
  refine Finset.sum_congr rfl fun r _ => Finset.sum_congr rfl fun c _ => Finset.sum_congr rfl fun i _ => ?_
  have e0 : k0_pay7 (F := Ideal) x0 (ix3 r c i) = pos (rowB x0 r) c i := pay7_apply x0 r c i
  have e1 : k0_pay11 (F := Ideal) (k0_pay8 x1) (k0_pay9 x1) (k0_pay10 x1) (ix3 r c i) = pos (rowB x1 r) c i :=
    (congrFun (pay11_eq x1) (ix3 r c i)).trans (pay7_apply x1 r c i)
  have e2 : k0_pay12 (F := Ideal) x2 (ix3 r c i) = pos (rowB x2 r) c i :=
    (congrFun (pay12_eq x2) (ix3 r c i)).trans (pay7_apply x2 r c i)
  have d14 : k0_pay14 (F := Ideal) (k0_pay7 x0) x2 (ix3 r c i) = pos (rowB x0 r) c i - pos (rowB x2 r) c i := by
    unfold k0_pay14
    exact (subf_apply _ _ _).trans (congrArg₂ (· - ·) e0 e2)
  have d13 : k0_pay13 (F := Ideal) (k0_pay8 x1) (k0_pay9 x1) (k0_pay10 x1) x2 (ix3 r c i)
      = pos (rowB x1 r) c i - pos (rowB x2 r) c i := by
    unfold k0_pay13
    exact (subf_apply _ _ _).trans (congrArg₂ (· - ·) e1 e2)
  exact congrArg₂ (· * ·) (congrArg₂ (· - ·) d14 d13) (congrArg₂ (· - ·) d14 d13)

/-- The accumulators start at zero. -/
theorem pay5_eq : k0_pay5 (F := Ideal) = fun _ => 0 := by
  funext y
  unfold k0_pay5
  refine (congrFun (shapeCast_self _ _) y).trans ?_
  exact Ideal.ofBits_zero_f32
theorem pay6_eq : k0_pay6 (F := Ideal) = fun _ => 0 := by
  funext y
  unfold k0_pay6
  refine (congrFun (shapeCast_self _ _) y).trans ?_
  exact Ideal.ofBits_zero_f32

/-- The last point divides an accumulator by the number of coordinates. -/
theorem pay3_eq (v : Vec Ideal S1x1 .f32) : k0_pay3 (F := Ideal) v = fun y => Ideal.div (v y) count := by
  funext y
  rfl
theorem pay4_eq (v : Vec Ideal S1x1 .f32) : k0_pay4 (F := Ideal) v = fun y => Ideal.div (v y) count := by
  funext y
  rfl

end Cert.FkLoss.Body

end
-- ==== Proof.KernelValue.lean ====
/-
  The idealized kernel's run read as values. After grid point n the two carried accumulators hold the sums of the
  first n + 1 blocks' shares of the position and the velocity error: the first point starts them from zero, every
  later point adds its block's share (induction on the point). The last point writes each accumulator, divided by the
  count, into its one-element output array, whose single block is the whole array; the reshape after the region makes
  it a scalar. Row r of block t is row t·8000 + r of the array, so the fifty shares regroup into the sum over all
  400000 rows: the two results are the specification's two losses of the three pose arrays.
-/
import proofs.«113168_j64149631533149_1_alg».proof.Proof.Gen.KernelIdeal.Frame
import proofs.«113168_j64149631533149_1_alg».proof.Proof.Spec
import proofs.«113168_j64149631533149_1_alg».proof.Proof.Pieces
import proofs.«113168_j64149631533149_1_alg».proof.Proof.BodyValue
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.FkLoss.Kernel

open Cert.KernelIdeal Cert.KernelIdeal.Gen Cert.FkLoss Idealize.ShloMosaic.ValueIdx

variable (m : (ℓ : Loc nD τ sig) → Buf (Elt Ideal) ℓ) (ρ : Dev nD → PrngReg)

/-! ## The three pose arrays, and a block's rows as rows of its array -/

abbrev arr0 (c : Dev nD) : (⟨2, ![400000, 128]⟩ : Shape).Idx → EReal := m ((c.tc : Thread nD τ).loc main_arg0)
abbrev arr1 (c : Dev nD) : (⟨2, ![400000, 128]⟩ : Shape).Idx → EReal := m ((c.tc : Thread nD τ).loc main_arg1)
abbrev arr2 (c : Dev nD) : (⟨2, ![400000, 128]⟩ : Shape).Idx → EReal := m ((c.tc : Thread nD τ).loc main_arg2)

/-- A grid point as a block number below fifty. -/
def blockNo (t : Fin cfg0.N) : Fin 50 := ⟨t.val, lt_of_lt_of_eq t.isLt N_0⟩

/-- Each input's block at point t starts at row t·8000 and column 0. -/
theorem in_index : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- Row r of the first array's block at point t is row t·8000 + r of the array. -/
theorem row_block0 (c : Dev nD) (t : Fin cfg0.N) (r : Fin 8000) :
    rowB (iblk m c 0 t) r = rowA (arr0 m c) (rowIx (blockNo t) r) := by
  funext k
  unfold rowB rowA iblk
  rw [View.read_apply]
  show V m c main_arg0 _ = m ((c.tc : Thread nD τ).loc main_arg0) _
  unfold V
  congr 1
  funext a
  apply Fin.ext
  match a with
  | ⟨0, _⟩ => show win0_0.index t 0 * 8000 + 1 * r.val = t.val * 8000 + r.val; rw [(in_index t).1.1]; omega
  | ⟨1, _⟩ => show win0_0.index t 1 * 128 + 1 * k.val = k.val; rw [(in_index t).1.2]; omega

theorem row_block1 (c : Dev nD) (t : Fin cfg0.N) (r : Fin 8000) :
    rowB (iblk m c 1 t) r = rowA (arr1 m c) (rowIx (blockNo t) r) := by
  funext k
  unfold rowB rowA iblk
  rw [View.read_apply]
  show V m c main_arg1 _ = m ((c.tc : Thread nD τ).loc main_arg1) _
  unfold V
  congr 1
  funext a
  apply Fin.ext
  match a with
  | ⟨0, _⟩ => show win0_1.index t 0 * 8000 + 1 * r.val = t.val * 8000 + r.val; rw [(in_index t).2.1.1]; omega
  | ⟨1, _⟩ => show win0_1.index t 1 * 128 + 1 * k.val = k.val; rw [(in_index t).2.1.2]; omega

theorem row_block2 (c : Dev nD) (t : Fin cfg0.N) (r : Fin 8000) :
    rowB (iblk m c 2 t) r = rowA (arr2 m c) (rowIx (blockNo t) r) := by
  funext k
  unfold rowB rowA iblk
  rw [View.read_apply]
  show V m c main_arg2 _ = m ((c.tc : Thread nD τ).loc main_arg2) _
  unfold V
  congr 1
  funext a
  apply Fin.ext
  match a with
  | ⟨0, _⟩ => show win0_2.index t 0 * 8000 + 1 * r.val = t.val * 8000 + r.val; rw [(in_index t).2.2.1]; omega
  | ⟨1, _⟩ => show win0_2.index t 1 * 128 + 1 * k.val = k.val; rw [(in_index t).2.2.2]; omega

/-! ## The shares and the running sums -/

/-- Block s's share of the position error (zero past the grid). -/
def sharePos (c : Dev nD) (s : ℕ) : EReal :=
  if h : s < cfg0.N then blockPos (iblk m c 0 ⟨s, h⟩) (iblk m c 1 ⟨s, h⟩) else 0

/-- Block s's share of the velocity error. -/
def shareVel (c : Dev nD) (s : ℕ) : EReal :=
  if h : s < cfg0.N then blockVel (iblk m c 0 ⟨s, h⟩) (iblk m c 1 ⟨s, h⟩) (iblk m c 2 ⟨s, h⟩) else 0

/-- The position error of the first n + 1 blocks. -/
def runPos (c : Dev nD) (n : ℕ) : EReal := ∑ s ∈ Finset.range (n + 1), sharePos m c s

/-- The velocity error of the first n + 1 blocks. -/
def runVel (c : Dev nD) (n : ℕ) : EReal := ∑ s ∈ Finset.range (n + 1), shareVel m c s

theorem sharePos_at (c : Dev nD) (t : Fin cfg0.N) : sharePos m c t.val = blockPos (iblk m c 0 t) (iblk m c 1 t) := by
  unfold sharePos; rw [dif_pos t.isLt]

theorem shareVel_at (c : Dev nD) (t : Fin cfg0.N) :
    shareVel m c t.val = blockVel (iblk m c 0 t) (iblk m c 1 t) (iblk m c 2 t) := by
  unfold shareVel; rw [dif_pos t.isLt]

/-! ## What each point leaves -/

/-- The first point leaves the first block's shares. -/
theorem first_point (c : Dev nD) (t : Fin cfg0.N) (h0 : t.val % 50 = 0) (h1 : ¬t.val % 50 = 49) :
    (outsAt0 m c t.val t.isLt).2.2.1 = (fun _ => blockPos (iblk m c 0 t) (iblk m c 1 t))
      ∧ (outsAt0 m c t.val t.isLt).2.2.2 = (fun _ => blockVel (iblk m c 0 t) (iblk m c 1 t) (iblk m c 2 t)) := by
  refine ⟨(congrArg (fun p => p.2.2.1) (outsAt0_A m c t h0 h1)).trans ?_,
    (congrArg (fun p => p.2.2.2) (outsAt0_A m c t h0 h1)).trans ?_⟩
  · refine (Pieces.accPos_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).trans ?_
    refine (Body.acc_pos (iblk m c 0 t) (iblk m c 1 t) (k0_pay5 (F := Ideal))).trans ?_
    funext y; rw [Body.pay5_eq]; exact zero_add _
  · refine (Pieces.accVel_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)).trans ?_
    refine (Body.acc_vel (iblk m c 0 t) (iblk m c 1 t) (iblk m c 2 t) (k0_pay6 (F := Ideal))).trans ?_
    funext y; rw [Body.pay6_eq]; exact zero_add _

/-- Every later point adds its block's shares to what the point before left. -/
theorem later_point (c : Dev nD) (t : Fin cfg0.N) (h0 : ¬t.val % 50 = 0) :
    (outsAt0 m c t.val t.isLt).2.2.1
        = (fun y => (outsAt0 m c (t.val - 1) (Nat.lt_of_le_of_lt (Nat.sub_le _ _) t.isLt)).2.2.1 y + blockPos (iblk m c 0 t) (iblk m c 1 t))
      ∧ (outsAt0 m c t.val t.isLt).2.2.2
        = (fun y => (outsAt0 m c (t.val - 1) (Nat.lt_of_le_of_lt (Nat.sub_le _ _) t.isLt)).2.2.2 y + blockVel (iblk m c 0 t) (iblk m c 1 t) (iblk m c 2 t)) := by
  by_cases h1 : t.val % 50 = 49
  · refine ⟨(congrArg (fun p => p.2.2.1) (outsAt0_C m c t h0 h1)).trans ?_,
      (congrArg (fun p => p.2.2.2) (outsAt0_C m c t h0 h1)).trans ?_⟩
    · refine (Pieces.accPos_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Body.acc_pos (iblk m c 0 t) (iblk m c 1 t) (outsAt0 m c (t.val - 1) (Nat.lt_of_le_of_lt (Nat.sub_le _ _) t.isLt)).2.2.1
    · refine (Pieces.accVel_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Body.acc_vel (iblk m c 0 t) (iblk m c 1 t) (iblk m c 2 t) (outsAt0 m c (t.val - 1) (Nat.lt_of_le_of_lt (Nat.sub_le _ _) t.isLt)).2.2.2
  · refine ⟨(congrArg (fun p => p.2.2.1) (outsAt0_B m c t h0 h1)).trans ?_,
      (congrArg (fun p => p.2.2.2) (outsAt0_B m c t h0 h1)).trans ?_⟩
    · refine (Pieces.accPos_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Body.acc_pos (iblk m c 0 t) (iblk m c 1 t) (outsAt0 m c (t.val - 1) (Nat.lt_of_le_of_lt (Nat.sub_le _ _) t.isLt)).2.2.1
    · refine (Pieces.accVel_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Body.acc_vel (iblk m c 0 t) (iblk m c 1 t) (iblk m c 2 t) (outsAt0 m c (t.val - 1) (Nat.lt_of_le_of_lt (Nat.sub_le _ _) t.isLt)).2.2.2

/-- The last point writes out the finished accumulators divided by the count. -/
theorem last_point (c : Dev nD) (t : Fin cfg0.N) (h0 : ¬t.val % 50 = 0) (h1 : t.val % 50 = 49) :
    (outsAt0 m c t.val t.isLt).1
        = (fun y => Ideal.div ((outsAt0 m c (t.val - 1) (Nat.lt_of_le_of_lt (Nat.sub_le _ _) t.isLt)).2.2.1 y + blockPos (iblk m c 0 t) (iblk m c 1 t)) count)
      ∧ (outsAt0 m c t.val t.isLt).2.1
        = (fun y => Ideal.div ((outsAt0 m c (t.val - 1) (Nat.lt_of_le_of_lt (Nat.sub_le _ _) t.isLt)).2.2.2 y + blockVel (iblk m c 0 t) (iblk m c 1 t) (iblk m c 2 t)) count) := by
  refine ⟨(congrArg (fun p => p.1) (outsAt0_C m c t h0 h1)).trans ?_,
    (congrArg (fun p => p.2.1) (outsAt0_C m c t h0 h1)).trans ?_⟩
  · refine (Pieces.outPos_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    refine (Body.pay3_eq _).trans ?_
    funext y
    exact congrArg (fun z => Ideal.div z count) (congrFun (Body.acc_pos (iblk m c 0 t) (iblk m c 1 t) (outsAt0 m c (t.val - 1) (Nat.lt_of_le_of_lt (Nat.sub_le _ _) t.isLt)).2.2.1) y)
  · refine (Pieces.outVel_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    refine (Body.pay4_eq _).trans ?_
    funext y
    exact congrArg (fun z => Ideal.div z count) (congrFun (Body.acc_vel (iblk m c 0 t) (iblk m c 1 t) (iblk m c 2 t) (outsAt0 m c (t.val - 1) (Nat.lt_of_le_of_lt (Nat.sub_le _ _) t.isLt)).2.2.2) y)

/-- After point n the accumulators hold the running sums: by induction on the point. -/
theorem acc_eq (c : Dev nD) : ∀ (n : ℕ) (hn : n < cfg0.N),
    (outsAt0 m c n hn).2.2.1 = (fun _ => runPos m c n) ∧ (outsAt0 m c n hn).2.2.2 = (fun _ => runVel m c n)
  | 0, hn => by
    have h := first_point m c ⟨0, hn⟩ (Nat.zero_mod _) (by dsimp only; omega)
    refine ⟨h.1.trans ?_, h.2.trans ?_⟩
    · funext _; unfold runPos; rw [Finset.sum_range_one]; exact (sharePos_at m c ⟨0, hn⟩).symm
    · funext _; unfold runVel; rw [Finset.sum_range_one]; exact (shareVel_at m c ⟨0, hn⟩).symm
  | n + 1, hn => by
    have hN : cfg0.N = 50 := N_0
    have h0 : ¬(⟨n + 1, hn⟩ : Fin cfg0.N).val % 50 = 0 := by dsimp only; omega
    have ih := acc_eq c n (Nat.lt_of_succ_lt hn)
    have h := later_point m c ⟨n + 1, hn⟩ h0
    refine ⟨h.1.trans ?_, h.2.trans ?_⟩
    · funext y
      show (outsAt0 m c n _).2.2.1 y + _ = runPos m c (n + 1)
      rw [ih.1]
      unfold runPos
      rw [Finset.sum_range_succ _ (n + 1)]
      exact congrArg _ (sharePos_at m c ⟨n + 1, hn⟩).symm
    · funext y
      show (outsAt0 m c n _).2.2.2 y + _ = runVel m c (n + 1)
      rw [ih.2]
      unfold runVel
      rw [Finset.sum_range_succ _ (n + 1)]
      exact congrArg _ (shareVel_at m c ⟨n + 1, hn⟩).symm

/-! ## The fifty shares are the sum over all rows -/

theorem runPos_total (c : Dev nD) :
    runPos m c 49 = ∑ n : Fin 400000, rowPos (rowA (arr0 m c) n) (rowA (arr1 m c) n) := by
  show ∑ s ∈ Finset.range 50, sharePos m c s = _
  rw [sum_rows_eq_sum_blocks, ← Fin.sum_univ_eq_sum_range (fun s => sharePos m c s) 50]
  refine Finset.sum_congr rfl fun t _ => ?_
  have ht : t.val < cfg0.N := lt_of_lt_of_eq t.isLt N_0.symm
  rw [sharePos_at m c ⟨t.val, ht⟩]
  unfold blockPos
  refine Finset.sum_congr rfl fun r _ => ?_
  rw [row_block0 m c ⟨t.val, ht⟩ r, row_block1 m c ⟨t.val, ht⟩ r]
  rfl

theorem runVel_total (c : Dev nD) :
    runVel m c 49 = ∑ n : Fin 400000, rowVel (rowA (arr0 m c) n) (rowA (arr1 m c) n) (rowA (arr2 m c) n) := by
  show ∑ s ∈ Finset.range 50, shareVel m c s = _
  rw [sum_rows_eq_sum_blocks, ← Fin.sum_univ_eq_sum_range (fun s => shareVel m c s) 50]
  refine Finset.sum_congr rfl fun t _ => ?_
  have ht : t.val < cfg0.N := lt_of_lt_of_eq t.isLt N_0.symm
  rw [shareVel_at m c ⟨t.val, ht⟩]
  unfold blockVel
  refine Finset.sum_congr rfl fun r _ => ?_
  rw [row_block0 m c ⟨t.val, ht⟩ r, row_block1 m c ⟨t.val, ht⟩ r, row_block2 m c ⟨t.val, ht⟩ r]
  rfl

/-- So the last point writes out the two losses. -/
theorem out_final (c : Dev nD) (t : Fin cfg0.N) (h1 : t.val % 50 = 49) :
    (outsAt0 m c t.val t.isLt).1 = (fun _ => posLoss (arr0 m c) (arr1 m c))
      ∧ (outsAt0 m c t.val t.isLt).2.1 = (fun _ => velLoss (arr0 m c) (arr1 m c) (arr2 m c)) := by
  have hN : cfg0.N = 50 := N_0
  have ht : t.val = 49 := by have := t.isLt; omega
  have h0 : ¬t.val % 50 = 0 := by omega
  have hl := last_point m c t h0 h1
  have hst := later_point m c t h0
  have hfull := acc_eq m c t.val t.isLt
  refine ⟨hl.1.trans ?_, hl.2.trans ?_⟩
  · funext y
    unfold posLoss
    refine congrArg (fun z => Ideal.div z count) ?_
    rw [← runPos_total m c]
    exact (congrFun (hst.1.symm.trans hfull.1) y).trans (congrArg (runPos m c) ht)
  · funext y
    unfold velLoss
    refine congrArg (fun z => Ideal.div z count) ?_
    rw [← runVel_total m c]
    exact (congrFun (hst.2.symm.trans hfull.2) y).trans (congrArg (runVel m c) ht)

end Cert.FkLoss.Kernel

end
-- ==== Proof.FinalValue.lean ====
/-
  The idealized kernel's two result scalars. Each output array has one element and one block, written back at the last
  grid point only, so after the region it holds what that point left: the loss. The reshape that follows reads that one
  element as a scalar. Together with the untouched argument arrays this is the run's post.
-/
import proofs.«113168_j64149631533149_1_alg».proof.Proof.KernelValue

set_option maxRecDepth 16384

noncomputable section

open scoped BigOperators

open Idealize.ShloMosaic Idealize.ShloMosaic.TcCoe Idealize.SL.Sem
open Idealize.ShloMosaic.Pipeline (Dat)

namespace Cert.FkLoss.Kernel

open Cert.KernelIdeal Cert.KernelIdeal.Gen Cert.FkLoss Idealize.ShloMosaic.ValueIdx

variable (m : (ℓ : Loc nD τ sig) → Buf (Elt Ideal) ℓ) (ρ : Dev nD → PrngReg)

/-- The last grid point. -/
def lastPt : Fin cfg0.N := ⟨49, by rw [show cfg0.N = 50 from N_0]; decide⟩

/-- Each output's block sits at the origin of its array and has one element, at every point. -/
theorem out_geom : ∀ t : Fin cfg0.N, ∀ a : Fin 2,
    (win0_3.index t a * win0_3.size a = 0 ∧ win0_3.xsize (grid0.coords t) a = 1)
      ∧ (win0_4.index t a * win0_4.size a = 0 ∧ win0_4.xsize (grid0.coords t) a = 1) :=
  (by decide +kernel : ∀ t : Fin grid0.N, ∀ a : Fin 2,
    (win0_3.index t a * win0_3.size a = 0 ∧ win0_3.xsize (grid0.coords t) a = 1)
      ∧ (win0_4.index t a * win0_4.size a = 0 ∧ win0_4.xsize (grid0.coords t) a = 1))

/-- The first output array's final contents: the position loss at its one index. -/
abbrev resPos (c : Dev nD) : Buf (Elt Ideal) ((c.tc : Thread nD τ).loc main_v0_0) := fun _ => posLoss (arr0 m c) (arr1 m c)

/-- The second output array's final contents: the velocity loss. -/
abbrev resVel (c : Dev nD) : Buf (Elt Ideal) ((c.tc : Thread nD τ).loc main_v0_1) :=
  fun _ => velLoss (arr0 m c) (arr1 m c) (arr2 m c)

/-- The one write-back of the first output writes the position loss. -/
theorem flushed_pos (c : Dev nD) (t : Fin cfg0.N) (hf : (cfg0.win 3).flush t = true) :
    (dats m 0 c).flushed 3 t = ((cfg0.win 3).blk t).view.read (Elt Ideal) (resPos m c) := by
  have h1 : t.val % 50 = 49 := (flush0_3 t).mp hf
  show (cfg0.win 3).cut (grid0.coords t) ((dats m 0 c).after 3 t) = _
  rw [after0_3, (out_final m c t h1).1]
  funext x
  rw [View.read_apply]
  rfl

theorem flushed_vel (c : Dev nD) (t : Fin cfg0.N) (hf : (cfg0.win 4).flush t = true) :
    (dats m 0 c).flushed 4 t = ((cfg0.win 4).blk t).view.read (Elt Ideal) (resVel m c) := by
  have h1 : t.val % 50 = 49 := (flush0_4 t).mp hf
  show (cfg0.win 4).cut (grid0.coords t) ((dats m 0 c).after 4 t) = _
  rw [after0_4, (out_final m c t h1).2]
  funext x
  rw [View.read_apply]
  rfl

/-- The last point's block is the whole one-element array, so the array ends at the position loss. -/
theorem final_pos (c : Dev nD) : (dats m 0 c).arrAt 3 cfg0.N = resPos m c :=
  (dats m 0 c).arrAt_eq_of_cover 3 (resPos m c) (flushed_pos m c) fun i => ⟨lastPt, (flush0_3 lastPt).mpr rfl, by
      show i ∈ ((View.whole main_v0_0).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_3.index lastPt 0 * win0_3.size 0 ≤ (i 0 : Nat) ∧ (i 0 : Nat) < win0_3.index lastPt 0 * win0_3.size 0 + win0_3.xsize (grid0.coords lastPt) 0
                  rw [(out_geom lastPt 0).1.1, (out_geom lastPt 0).1.2]; omega
      | ⟨1, _⟩ => show win0_3.index lastPt 1 * win0_3.size 1 ≤ (i 1 : Nat) ∧ (i 1 : Nat) < win0_3.index lastPt 1 * win0_3.size 1 + win0_3.xsize (grid0.coords lastPt) 1
                  rw [(out_geom lastPt 1).1.1, (out_geom lastPt 1).1.2]; omega⟩

theorem final_vel (c : Dev nD) : (dats m 0 c).arrAt 4 cfg0.N = resVel m c :=
  (dats m 0 c).arrAt_eq_of_cover 4 (resVel m c) (flushed_vel m c) fun i => ⟨lastPt, (flush0_4 lastPt).mpr rfl, by
      show i ∈ ((View.whole main_v0_1).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_4.index lastPt 0 * win0_4.size 0 ≤ (i 0 : Nat) ∧ (i 0 : Nat) < win0_4.index lastPt 0 * win0_4.size 0 + win0_4.xsize (grid0.coords lastPt) 0
                  rw [(out_geom lastPt 0).2.1, (out_geom lastPt 0).2.2]; omega
      | ⟨1, _⟩ => show win0_4.index lastPt 1 * win0_4.size 1 ≤ (i 1 : Nat) ∧ (i 1 : Nat) < win0_4.index lastPt 1 * win0_4.size 1 + win0_4.xsize (grid0.coords lastPt) 1
                  rw [(out_geom lastPt 1).2.1, (out_geom lastPt 1).2.2]; omega⟩

end Cert.FkLoss.Kernel

end
-- ==== Proof.KernelRun.lean ====
/-
  The idealized kernel's run with its results named: every weakly fair execution terminates with the first result at
  the position loss, the second at the velocity loss, and the four argument arrays unchanged. The reshape after the
  region reads each one-element output array at its one index.
-/
import proofs.«113168_j64149631533149_1_alg».proof.Proof.FinalValue

set_option maxRecDepth 16384

noncomputable section

open scoped BigOperators

open Idealize.ShloMosaic Idealize.ShloMosaic.TcCoe Idealize.SL.Sem
open Idealize.ShloMosaic.Pipeline (Dat)

namespace Cert.FkLoss.Kernel

open Cert.KernelIdeal Cert.KernelIdeal.Gen Cert.FkLoss Idealize.ShloMosaic.ValueIdx

variable (m : (ℓ : Loc nD τ sig) → Buf (Elt Ideal) ℓ) (ρ : Dev nD → PrngReg)

/-- The first result: the reshape of the first output array, which holds the position loss. -/
theorem tail_pos (c : Dev nD) :
    Pipeline.afterTail₀ cfgs (dats m) 0 (V0 m) [hostOps1] c main_v1 = (fun _ => posLoss (arr0 m c) (arr1 m c)) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0_0) = resPos m c :=
    (Pipeline.withArrays_arr spec0 launch0.win.arr_inj c _ _ 3).trans (final_pos m c)
  rw [e]
  rfl

/-- The second result: the reshape of the second output array, which holds the velocity loss. -/
theorem tail_vel (c : Dev nD) :
    Pipeline.afterTail₀ cfgs (dats m) 0 (V0 m) [hostOps1] c main_v2
      = (fun _ => velLoss (arr0 m c) (arr1 m c) (arr2 m c)) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v0_1) = resVel m c :=
    (Pipeline.withArrays_arr spec0 launch0.win.arr_inj c _ _ 4).trans (final_vel m c)
  rw [e]
  rfl

/-- The run, read. -/
theorem run : θ_run defs (onTc (τ := τ) (main (F := Ideal))) ⟨m, fun _ => 0, ρ⟩ fun r => ∀ c : Dev nD,
      r.2.mem ((c.tc : Thread nD τ).loc main_v1) = (fun _ => posLoss (arr0 m c) (arr1 m c))
      ∧ r.2.mem ((c.tc : Thread nD τ).loc main_v2) = (fun _ => velLoss (arr0 m c) (arr1 m c) (arr2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v1 (Pipeline.mem_restRefs_of main_v1 (by decide) (by decide))).trans (tail_pos m c),
      ((h c).2 main_v2 (Pipeline.mem_restRefs_of main_v2 (by decide) (by decide))).trans (tail_vel m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.FkLoss.Kernel

end
-- ==== Proof.lean ====
/-
  The claim: the kernel and its idealization run and leave their arguments unchanged, the idealization rewrote nothing,
  and at the extended reals the idealized kernel and the idealized reference compute the same two numbers from the same
  three pose arrays.

  Each row of a pose array holds two chains of four 4×4 joint matrices. Both programs multiply each chain's matrices
  left to right and take rows 0..2 of the product's last column as the end-effector position — the kernel by
  broadcasting, multiplying and summing over the shared axis, the reference by batched matrix products: entry by entry
  the same sums of the same products. From the positions o, g, p of the predicted, target and previous target pose
  both form (o − g)² and ((o − p) − (g − p))² and sum them over all rows, chains and coordinates, then divide by the
  number 2400000 of coordinates. The reference sums all 400000 rows at once; the kernel sums 8000 rows per grid point
  into two accumulators carried over fifty points. Regrouping a finite sum is valid in any commutative monoid, so the
  two sums are equal over the extended reals whatever the inputs: the precondition is not used.

  Spec.lean states the two losses; RefLoss.lean reads the reference's stages as them; BodyValue.lean reads the
  kernel body's arithmetic on one block; Pieces.lean says what each control case leaves in the accumulators and
  outputs; KernelValue.lean sums over the grid points; FinalValue.lean and KernelRun.lean read the result arrays and
  the scalars after the region.
-/
import proofs.«113168_j64149631533149_1_alg».proof.Defs
import proofs.«113168_j64149631533149_1_alg».proof.Proof.Gen.Kernel
import proofs.«113168_j64149631533149_1_alg».proof.Proof.Gen.Kernel.Skeleton
import proofs.«113168_j64149631533149_1_alg».proof.Proof.Gen.Kernel.Launch
import proofs.«113168_j64149631533149_1_alg».proof.Proof.Gen.Kernel.Points
import proofs.«113168_j64149631533149_1_alg».proof.Proof.Gen.Kernel.Frame
import proofs.«113168_j64149631533149_1_alg».proof.Proof.Gen.KernelIdeal
import proofs.«113168_j64149631533149_1_alg».proof.Proof.Gen.KernelIdeal.Skeleton
import proofs.«113168_j64149631533149_1_alg».proof.Proof.Gen.KernelIdeal.Launch
import proofs.«113168_j64149631533149_1_alg».proof.Proof.Gen.KernelIdeal.Points
import proofs.«113168_j64149631533149_1_alg».proof.Proof.Gen.KernelIdeal.Frame
import proofs.«113168_j64149631533149_1_alg».proof.Proof.Gen.ReferenceIdeal
import proofs.«113168_j64149631533149_1_alg».proof.Proof.Gen.ReferenceIdeal.Run
import proofs.«113168_j64149631533149_1_alg».proof.Proof.Gen.ReferenceIdeal.Read
import proofs.«113168_j64149631533149_1_alg».proof.Proof.Gen.Pre_finite_inputs
import proofs.«113168_j64149631533149_1_alg».proof.Proof.RefLoss
import proofs.«113168_j64149631533149_1_alg».proof.Proof.KernelRun
import Idealize.ShloMosaic.Adequacy
import Idealize.ShloMosaic.Init

noncomputable section

namespace Cert.Proof

open Idealize.ShloMosaic Idealize.SL.Sem

/-- The kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the position loss and the velocity loss of the three pose arrays; the memories
    agree on those arrays, so the results are equal. -/
theorem algebraic : Cert.algebraic_KernelIdeal_ReferenceIdeal := by
  intro m ρ m' ρ' _ hagree
  refine ⟨fun c => (fun _ => Cert.FkLoss.posLoss (Cert.FkLoss.Kernel.arr0 m c) (Cert.FkLoss.Kernel.arr1 m c)),
    fun c => (fun _ => Cert.FkLoss.velLoss (Cert.FkLoss.Kernel.arr0 m c) (Cert.FkLoss.Kernel.arr1 m c) (Cert.FkLoss.Kernel.arr2 m c)),
    Cert.FkLoss.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v47_eq, Cert.FkLoss.Ref.ref_pos, (hagree c).1, (hagree c).2.1]
    rfl
  · rw [Cert.ReferenceIdeal.Read.val_main_v51_eq, Cert.FkLoss.Ref.ref_vel, (hagree c).1, (hagree c).2.1, (hagree c).2.2.1]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
